-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x32000x64 : Shape := ⟨3, ![16, 32000, 64]⟩
abbrev S_ : Shape := ⟨0, ![]⟩

class Facts : Prop where
  bcast_S_S16x32000x64 : S_.BroadcastsInDim S16x32000x64 (![] : Fin 0 → Fin S16x32000x64.rank)
  reducesTo_S16x32000x64_S_d0_1_2 : S16x32000x64.ReducesTo [0, 1, 2] S_
  h_S_ : 0 < S_.numel

variable [Facts]

def fn {F : FTy → Type} [FloatOps F] (main_arg0 : FVec F S16x32000x64 .f32) : IVec S_ 1 :=
  let main_v0 : FVec F S16x32000x64 .f32 := Host.absf main_arg0
  let main_cst : FVec F S_ .f32 := constant S_ .f32 0x7F800000#32
  let main_v1 : FVec F S16x32000x64 .f32 := broadcastInDim S16x32000x64 ![] bcast_S_S16x32000x64 main_cst
  let main_v2 : IVec S16x32000x64 1 := cmpf .olt main_v0 main_v1
  let main_c : IVec S_ 1 := constantI S_ 1 1#1
  let main_v3 : IVec S_ 1 := (fun x v => Host.reduce IntOp.andi x v reducesTo_S16x32000x64_S_d0_1_2 h_S_) main_v2 main_c
  main_v3
-- ==== Kernel.lean ====
abbrev S16x32000x64 : Shape := ⟨3, ![16, 32000, 64]⟩
abbrev S_ : Shape := ⟨0, ![]⟩
abbrev S16x32256x64 : Shape := ⟨3, ![16, 32256, 64]⟩
abbrev S16x256x250x64 : Shape := ⟨4, ![16, 256, 250, 64]⟩
abbrev S16x1000x64 : Shape := ⟨3, ![16, 1000, 64]⟩
abbrev S16x200x64 : Shape := ⟨3, ![16, 200, 64]⟩
abbrev S16x8x250x64 : Shape := ⟨4, ![16, 8, 250, 64]⟩
abbrev S16x250x64 : Shape := ⟨3, ![16, 250, 64]⟩
abbrev S16x1x250x64 : Shape := ⟨4, ![16, 1, 250, 64]⟩
abbrev S16x125x64 : Shape := ⟨3, ![16, 125, 64]⟩
abbrev S16x255x250x64 : Shape := ⟨4, ![16, 255, 250, 64]⟩

abbrev nBuf : Space → Nat
  | .hbm => 6
  | .vmem => 6
  | .smem => 0
  | _ => 0

abbrev bufTy : (tb : Table) → Fin (tcTables nBuf tb) → BufTy
  | .hbm, ⟨0, _⟩ => ⟨S16x32000x64, .f32⟩
  | .hbm, ⟨1, _⟩ => ⟨S_, .i32⟩
  | .hbm, ⟨2, _⟩ => ⟨S_, .f32⟩
  | .hbm, ⟨3, _⟩ => ⟨S16x32256x64, .f32⟩
  | .hbm, ⟨4, _⟩ => ⟨S16x256x250x64, .f32⟩
  | .hbm, ⟨5, _⟩ => ⟨S16x255x250x64, .f32⟩
  | .local _ .vmem, ⟨0, _⟩ => ⟨S16x1000x64, .f32⟩
  | .local _ .vmem, ⟨1, _⟩ => ⟨S16x1000x64, .f32⟩
  | .local _ .vmem, ⟨2, _⟩ => ⟨S16x200x64, .f32⟩
  | .local _ .vmem, ⟨3, _⟩ => ⟨S16x200x64, .f32⟩
  | .local _ .vmem, ⟨4, _⟩ => ⟨S16x8x250x64, .f32⟩
  | .local _ .vmem, ⟨5, _⟩ => ⟨S16x8x250x64, .f32⟩
  | _, _ => ⟨S16x32000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_c : Ref sig .tc := ⟨.hbm, 1, rfl⟩
abbrev main_call0_v0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c1_i32 : BitVec 32 := 1#32
  let v0 : BitVec 32 := Scalar.addi arg0 c1_i32
  let c5_i32 : BitVec 32 := 5#32
  let v1 : BitVec 32 := Scalar.muli c5_i32 v0
  let c0_i32 : BitVec 32 := 0#32
  let c0_i32_0 : BitVec 32 := 0#32
  let c0_i32_1 : BitVec 32 := 0#32
  ![c0_i32.toNat, v1.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S16x1000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x200x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x8x250x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  pads_S16x32000x64_S16x32256x64_000_02560_000 : S16x32000x64.Pads (![0, 0, 0] : Fin 3 → Nat) ![0, 256, 0] ![0, 0, 0] S16x32256x64
  h_S_ : 0 < S_.numel
  inb_S16x1000x64_S16x1000x64_0_0_0 : ∀ a, (![0, 0, 0] : Fin 3 → Nat) a + S16x1000x64.size a ≤ S16x1000x64.size a
  h_S16x1000x64 : 0 < S16x1000x64.numel
  shapeCasts_S16x1000x64_S16x1000x64 : S16x1000x64.ShapeCasts S16x1000x64
  inb_S16x200x64_S16x200x64_0_0_0 : ∀ a, (![0, 0, 0] : Fin 3 → Nat) a + S16x200x64.size a ≤ S16x200x64.size a
  h_S16x200x64 : 0 < S16x200x64.numel
  shapeCasts_S16x200x64_S16x200x64 : S16x200x64.ShapeCasts S16x200x64
  slices_S16x1000x64_o0_0_0_S16x250x64 : S16x1000x64.Slices ![0, 0, 0] S16x250x64
  slices_S16x1000x64_o0_125_0_S16x250x64 : S16x1000x64.Slices ![0, 125, 0] S16x250x64
  inb_S16x8x250x64_S16x1x250x64_0_0_0_0 : ∀ a, (![0, 0, 0, 0] : Fin 4 → Nat) a + S16x1x250x64.size a ≤ S16x8x250x64.size a
  h_S16x1x250x64 : 0 < S16x1x250x64.numel
  shapeCasts_S16x1x250x64_S16x250x64 : S16x1x250x64.ShapeCasts S16x250x64
  shapeCasts_S16x250x64_S16x1x250x64 : S16x250x64.ShapeCasts S16x1x250x64
  inb_S16x8x250x64_S16x1x250x64_0_1_0_0 : ∀ a, (![0, 1, 0, 0] : Fin 4 → Nat) a + S16x1x250x64.size a ≤ S16x8x250x64.size a
  slices_S16x1000x64_o0_250_0_S16x250x64 : S16x1000x64.Slices ![0, 250, 0] S16x250x64
  slices_S16x1000x64_o0_375_0_S16x250x64 : S16x1000x64.Slices ![0, 375, 0] S16x250x64
  inb_S16x8x250x64_S16x1x250x64_0_2_0_0 : ∀ a, (![0, 2, 0, 0] : Fin 4 → Nat) a + S16x1x250x64.size a ≤ S16x8x250x64.size a
  inb_S16x8x250x64_S16x1x250x64_0_3_0_0 : ∀ a, (![0, 3, 0, 0] : Fin 4 → Nat) a + S16x1x250x64.size a ≤ S16x8x250x64.size a
  slices_S16x1000x64_o0_500_0_S16x250x64 : S16x1000x64.Slices ![0, 500, 0] S16x250x64
  slices_S16x1000x64_o0_625_0_S16x250x64 : S16x1000x64.Slices ![0, 625, 0] S16x250x64
  inb_S16x8x250x64_S16x1x250x64_0_4_0_0 : ∀ a, (![0, 4, 0, 0] : Fin 4 → Nat) a + S16x1x250x64.size a ≤ S16x8x250x64.size a
  inb_S16x8x250x64_S16x1x250x64_0_5_0_0 : ∀ a, (![0, 5, 0, 0] : Fin 4 → Nat) a + S16x1x250x64.size a ≤ S16x8x250x64.size a
  slices_S16x1000x64_o0_750_0_S16x250x64 : S16x1000x64.Slices ![0, 750, 0] S16x250x64
  slices_S16x1000x64_o0_875_0_S16x125x64 : S16x1000x64.Slices ![0, 875, 0] S16x125x64
  slices_S16x200x64_o0_0_0_S16x125x64 : S16x200x64.Slices ![0, 0, 0] S16x125x64
  concatenates_S16x125x64_S16x125x64_S16x250x64_d1 : Shape.Concatenates [S16x125x64, S16x125x64] S16x250x64 1
  inb_S16x8x250x64_S16x1x250x64_0_6_0_0 : ∀ a, (![0, 6, 0, 0] : Fin 4 → Nat) a + S16x1x250x64.size a ≤ S16x8x250x64.size a
  inb_S16x8x250x64_S16x1x250x64_0_7_0_0 : ∀ a, (![0, 7, 0, 0] : Fin 4 → Nat) a + S16x1x250x64.size a ≤ S16x8x250x64.size a
  slices_S16x256x250x64_S16x255x250x64_0_0_0_0 : S16x256x250x64.Slices ![0, 0, 0, 0] S16x255x250x64
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S16x1000x64.size a < S16x32256x64.size a
  hwx0_0 : ∀ i : grid0.Coords, EltTy.bits .f32 = 32 ∨ (Rect.unit (s := S16x32256x64) (fun a => cc0_transform_0 i a * S16x1000x64.size a) (fun a => (Pipeline.Clip.of (cc0_transform_0 i a) (S16x1000x64.size a) (S16x32256x64.size a)).extent (S16x1000x64.size a)) fun a => Pipeline.Clip.inb (Pipeline.Clip.ok_of (hstart0_0 i a))).WholeWords (EltTy.packing .f32)
  hwxs0_0 : ∀ i : grid0.Coords, EltTy.bits .f32 = 32 ∨ (Rect.unit (s := S16x1000x64) (fun _ => 0) (fun a => (Pipeline.Clip.of (cc0_transform_0 i a) (S16x1000x64.size a) (S16x32256x64.size a)).extent (S16x1000x64.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S16x200x64.size a < S16x32256x64.size a
  hwx0_1 : ∀ i : grid0.Coords, EltTy.bits .f32 = 32 ∨ (Rect.unit (s := S16x32256x64) (fun a => cc0_transform_1 i a * S16x200x64.size a) (fun a => (Pipeline.Clip.of (cc0_transform_1 i a) (S16x200x64.size a) (S16x32256x64.size a)).extent (S16x200x64.size a)) fun a => Pipeline.Clip.inb (Pipeline.Clip.ok_of (hstart0_1 i a))).WholeWords (EltTy.packing .f32)
  hwxs0_1 : ∀ i : grid0.Coords, EltTy.bits .f32 = 32 ∨ (Rect.unit (s := S16x200x64) (fun _ => 0) (fun a => (Pipeline.Clip.of (cc0_transform_1 i a) (S16x200x64.size a) (S16x32256x64.size a)).extent (S16x200x64.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x8x250x64.size a ≤ S16x256x250x64.size a
  hwx0_2 : ∀ i : grid0.Coords, EltTy.bits .f32 = 32 ∨ (Rect.block (s := S16x256x250x64) S16x8x250x64.size (cc0_transform_2 i) (hinb0_2 i)).WholeWords (EltTy.packing .f32)

variable [Facts₀]

abbrev win0_0 : Pipeline.Window sig grid0 :=
  Pipeline.Window.ofSpecClip (Memref.whole main_v0) S16x1000x64.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_v0) S16x200x64.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpec (Memref.whole main_v1) S16x8x250x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x32000x64 : Shape := ⟨3, ![16, 32000, 64]⟩
abbrev S255 : Shape := ⟨1, ![255]⟩
abbrev S16x128x250x64 : Shape := ⟨4, ![16, 128, 250, 64]⟩
abbrev S16x31875x64 : Shape := ⟨3, ![16, 31875, 64]⟩
abbrev S16x125x64 : Shape := ⟨3, ![16, 125, 64]⟩
abbrev S16x127x250x64 : Shape := ⟨4, ![16, 127, 250, 64]⟩
abbrev S16x255x250x64 : Shape := ⟨4, ![16, 255, 250, 64]⟩
abbrev S_ : Shape := ⟨0, ![]⟩
abbrev S255x1 : Shape := ⟨2, ![255, 1]⟩
abbrev S1 : Shape := ⟨1, ![1]⟩
abbrev S1x1 : Shape := ⟨2, ![1, 1]⟩

abbrev nBuf : Space → Nat
  | .hbm => 32
  | .vmem => 0
  | .smem => 0
  | _ => 0

abbrev bufTy : (tb : Table) → Fin (tcTables nBuf tb) → BufTy
  | .hbm, ⟨0, _⟩ => ⟨S16x32000x64, .f32⟩
  | .hbm, ⟨1, _⟩ => ⟨S255, .i32⟩
  | .hbm, ⟨2, _⟩ => ⟨S16x128x250x64, .f32⟩
  | .hbm, ⟨3, _⟩ => ⟨S16x31875x64, .f32⟩
  | .hbm, ⟨4, _⟩ => ⟨S16x125x64, .f32⟩
  | .hbm, ⟨5, _⟩ => ⟨S16x32000x64, .f32⟩
  | .hbm, ⟨6, _⟩ => ⟨S16x128x250x64, .f32⟩
  | .hbm, ⟨7, _⟩ => ⟨S16x127x250x64, .f32⟩
  | .hbm, ⟨8, _⟩ => ⟨S16x255x250x64, .f32⟩
  | .hbm, ⟨9, _⟩ => ⟨S_, .i32⟩
  | .hbm, ⟨10, _⟩ => ⟨S255, .i32⟩
  | .hbm, ⟨11, _⟩ => ⟨S255, .i1⟩
  | .hbm, ⟨12, _⟩ => ⟨S_, .i32⟩
  | .hbm, ⟨13, _⟩ => ⟨S255, .i32⟩
  | .hbm, ⟨14, _⟩ => ⟨S255, .i32⟩
  | .hbm, ⟨15, _⟩ => ⟨S255, .i32⟩
  | .hbm, ⟨16, _⟩ => ⟨S255x1, .i32⟩
  | .hbm, ⟨17, _⟩ => ⟨S1, .i32⟩
  | .hbm, ⟨18, _⟩ => ⟨S_, .i32⟩
  | .hbm, ⟨19, _⟩ => ⟨S255x1, .i32⟩
  | .hbm, ⟨20, _⟩ => ⟨S255x1, .i1⟩
  | .hbm, ⟨21, _⟩ => ⟨S1x1, .i32⟩
  | .hbm, ⟨22, _⟩ => ⟨S255x1, .i32⟩
  | .hbm, ⟨23, _⟩ => ⟨S255x1, .i1⟩
  | .hbm, ⟨24, _⟩ => ⟨S255x1, .i1⟩
  | .hbm, ⟨25, _⟩ => ⟨S_, .i1⟩
  | .hbm, ⟨26, _⟩ => ⟨S255, .i1⟩
  | .hbm, ⟨27, _⟩ => ⟨S16x255x250x64, .f32⟩
  | .hbm, ⟨28, _⟩ => ⟨S16x255x250x64, .i1⟩
  | .hbm, ⟨29, _⟩ => ⟨S_, .f32⟩
  | .hbm, ⟨30, _⟩ => ⟨S16x255x250x64, .f32⟩
  | .hbm, ⟨31, _⟩ => ⟨S16x255x250x64, .f32⟩
  | _, _ => ⟨S16x32000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_v0 : Ref sig .tc := ⟨.hbm, 2, rfl⟩
abbrev main_call0_v0 : Ref sig .tc := ⟨.hbm, 3, rfl⟩
abbrev main_call0_v1 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call1_c : Ref sig .tc := ⟨.hbm, 9, rfl⟩
abbrev main_call1_v0 : Ref sig .tc := ⟨.hbm, 10, rfl⟩
abbrev main_call1_v1 : Ref sig .tc := ⟨.hbm, 11, rfl⟩
abbrev main_call1_c_0 : Ref sig .tc := ⟨.hbm, 12, rfl⟩
abbrev main_call1_v2 : Ref sig .tc := ⟨.hbm, 13, rfl⟩
abbrev main_call1_v3 : Ref sig .tc := ⟨.hbm, 14, rfl⟩
abbrev main_call1_v4 : Ref sig .tc := ⟨.hbm, 15, rfl⟩
abbrev main_call1_v5 : Ref sig .tc := ⟨.hbm, 16, rfl⟩
abbrev main_call1_c_1 : Ref sig .tc := ⟨.hbm, 17, rfl⟩
abbrev main_call1_c_2 : Ref sig .tc := ⟨.hbm, 18, rfl⟩
abbrev main_call1_v6 : Ref sig .tc := ⟨.hbm, 19, rfl⟩
abbrev main_call1_v7 : Ref sig .tc := ⟨.hbm, 20, rfl⟩
abbrev main_call1_v8 : Ref sig .tc := ⟨.hbm, 21, rfl⟩
abbrev main_call1_v9 : Ref sig .tc := ⟨.hbm, 22, rfl⟩
abbrev main_call1_v10 : Ref sig .tc := ⟨.hbm, 23, rfl⟩
abbrev main_call1_v11 : Ref sig .tc := ⟨.hbm, 24, rfl⟩
abbrev main_call1_c_3 : Ref sig .tc := ⟨.hbm, 25, rfl⟩
abbrev main_call1_v12 : Ref sig .tc := ⟨.hbm, 26, rfl⟩
abbrev main_call1_v13 : Ref sig .tc := ⟨.hbm, 27, rfl⟩
abbrev main_call1_v14 : Ref sig .tc := ⟨.hbm, 28, rfl⟩
abbrev main_call1_cst : Ref sig .tc := ⟨.hbm, 29, rfl⟩
abbrev main_call1_v15 : Ref sig .tc := ⟨.hbm, 30, rfl⟩
abbrev main_v5 : Ref sig .tc := ⟨.hbm, 31, rfl⟩

abbrev nD : Nat := 1
abbrev τ : Topo := Topo.v7x

variable {F : FTy → Type} [FloatOps F]

class Facts₀ : Prop where
  shapeCasts_S16x32000x64_S16x128x250x64 : S16x32000x64.ShapeCasts S16x128x250x64
  slices_S16x32000x64_S16x31875x64_0_125_0 : S16x32000x64.Slices ![0, 125, 0] S16x31875x64
  slices_S16x32000x64_S16x125x64_0_0_0 : S16x32000x64.Slices ![0, 0, 0] S16x125x64
  concatenates_S16x31875x64_S16x125x64_S16x32000x64_d1 : Shape.Concatenates [S16x31875x64, S16x125x64] S16x32000x64 1
  slices_S16x128x250x64_S16x127x250x64_0_0_0_0 : S16x128x250x64.Slices ![0, 0, 0, 0] S16x127x250x64
  concatenates_S16x128x250x64_S16x127x250x64_S16x255x250x64_d1 : Shape.Concatenates [S16x128x250x64, S16x127x250x64] S16x255x250x64 1
  bcast_S_S255 : S_.BroadcastsInDim S255 (![] : Fin 0 → Fin S255.rank)
  bcast_S255_S255x1_0 : S255.BroadcastsInDim S255x1 (![0] : Fin 1 → Fin S255x1.rank)
  bcast_S_S255x1 : S_.BroadcastsInDim S255x1 (![] : Fin 0 → Fin S255x1.rank)
  bcast_S1_S1x1_1 : S1.BroadcastsInDim S1x1 (![1] : Fin 1 → Fin S1x1.rank)
  bcast_S1x1_S255x1_0_1 : S1x1.BroadcastsInDim S255x1 (![0, 1] : Fin 2 → Fin S255x1.rank)
  reducesTo_S255x1_S255_d1 : S255x1.ReducesTo [1] S255
  h_S_ : 0 < S_.numel
  bcast_S255_S16x255x250x64_1 : S255.BroadcastsInDim S16x255x250x64 (![1] : Fin 1 → Fin S16x255x250x64.rank)
  bcast_S_S16x255x250x64 : S_.BroadcastsInDim S16x255x250x64 (![] : Fin 0 → Fin S16x255x250x64.rank)
  gather_S16x255x250x64_S255x1_S16x255x250x64_023_1_n_n_1_1_16125064_wf : GatherDims.WF S16x255x250x64 S255x1 S16x255x250x64 [0, 2, 3] [1] [] [1] [] 1 ![16, 1, 250, 64]

variable [Facts₀]

def gather_S16x255x250x64_S255x1_S16x255x250x64_023_1_n_n_1_1_16125064 : GatherDims S16x255x250x64 S255x1 S16x255x250x64 where
  offsetDims := [0, 2, 3]
  collapsedSliceDims := [1]
  operandBatchingDims := []
  startIndicesBatchingDims := []
  startIndexMap := [1]
  indexVectorDim := 1
  sliceSizes := ![16, 1, 250, 64]
  wf := gather_S16x255x250x64_S255x1_S16x255x250x64_023_1_n_n_1_1_16125064_wf

class Facts : Prop extends Facts₀ where

variable [Facts]
-- ==== Proof.KBody.lean ====
/-
  The kernel's body at one grid point. The grid has 32 points; point `t` is handed group `t` of the padded
  signal (1000 rows) and a look-ahead of 200 rows that starts where group `t + 1` starts, and stores the eight
  half-overlapping windows that start in the group: window `k` is rows `125 k … 125 k + 249` of the group, and
  the last one takes its second half from the look-ahead. No block of either input overhangs the padded signal
  on the grid, so each fetch fills its whole buffer. Both input windows read the SAME array, so each holds half
  of it. This file: what the body leaves in the output block as the pieces it stores, the body's run, and the
  obligation the launch asks of the body at every point. Everything is stated for any float instance: nothing
  is computed, rows are only moved.
-/
import proofs.«115234_j62783831933059_2_alg».proof.Proof.Gen.Kernel.Launch
import proofs.«115234_j62783831933059_2_alg».proof.Proof.Gen.Kernel.Skeleton
import proofs.«115234_j62783831933059_2_alg».proof.Proof.Gen.Kernel.Points
import Idealize.ShloMosaic.Lib.Pipeline.FrameBody
import Idealize.ShloMosaic.Lib.Pipeline.FrameSuffix
import Idealize.ShloMosaic.Lib.Tactic

set_option maxRecDepth 16384

noncomputable section

namespace Cert.Kernel.Chunk

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The schedule's cuts: no block of an input window overhangs its array on the grid -/

theorem clip0_none : ∀ t : Fin cfg0.N, ∀ a, (cfg0.win 0).clip (cfg0.grid.coords t) a = none :=
  (by decide +kernel : ∀ t : Fin grid0.N, ∀ a, win0_0.clip (grid0.coords t) a = none)
theorem clip1_none : ∀ t : Fin cfg0.N, ∀ a, (cfg0.win 1).clip (cfg0.grid.coords t) a = none :=
  (by decide +kernel : ∀ t : Fin grid0.N, ∀ a, win0_1.clip (grid0.coords t) a = none)

/-! ## @main around the region -/

abbrev V0 (c : Dev nD) : Valuation τ sig (Elt F) := StableHlo.after (List.flatten [hostOps0, hostOps0_1]) (fun b => m (c, b))
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1] [hostOps1] (by simp only [List.Forall]; exact ⟨hostOps0_sub, hostOps0_1_sub⟩)
    (by simp only [List.Forall]; exact ⟨hostOps0_fresh, hostOps0_1_fresh⟩) main_chain

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's accesses -/

abbrev rI0 : Rect S16x1000x64 := Rect.unit (s := S16x1000x64) ![0, 0, 0] S16x1000x64.size inb_S16x1000x64_S16x1000x64_0_0_0
abbrev rI1 : Rect S16x200x64 := Rect.unit (s := S16x200x64) ![0, 0, 0] S16x200x64.size inb_S16x200x64_S16x200x64_0_0_0
abbrev rO0 : Rect S16x8x250x64 := Rect.unit (s := S16x8x250x64) ![0, 0, 0, 0] S16x1x250x64.size inb_S16x8x250x64_S16x1x250x64_0_0_0_0
abbrev rO1 : Rect S16x8x250x64 := Rect.unit (s := S16x8x250x64) ![0, 1, 0, 0] S16x1x250x64.size inb_S16x8x250x64_S16x1x250x64_0_1_0_0
abbrev rO2 : Rect S16x8x250x64 := Rect.unit (s := S16x8x250x64) ![0, 2, 0, 0] S16x1x250x64.size inb_S16x8x250x64_S16x1x250x64_0_2_0_0
abbrev rO3 : Rect S16x8x250x64 := Rect.unit (s := S16x8x250x64) ![0, 3, 0, 0] S16x1x250x64.size inb_S16x8x250x64_S16x1x250x64_0_3_0_0
abbrev rO4 : Rect S16x8x250x64 := Rect.unit (s := S16x8x250x64) ![0, 4, 0, 0] S16x1x250x64.size inb_S16x8x250x64_S16x1x250x64_0_4_0_0
abbrev rO5 : Rect S16x8x250x64 := Rect.unit (s := S16x8x250x64) ![0, 5, 0, 0] S16x1x250x64.size inb_S16x8x250x64_S16x1x250x64_0_5_0_0
abbrev rO6 : Rect S16x8x250x64 := Rect.unit (s := S16x8x250x64) ![0, 6, 0, 0] S16x1x250x64.size inb_S16x8x250x64_S16x1x250x64_0_6_0_0
abbrev rO7 : Rect S16x8x250x64 := Rect.unit (s := S16x8x250x64) ![0, 7, 0, 0] S16x1x250x64.size inb_S16x8x250x64_S16x1x250x64_0_7_0_0

/-- The eight rows the body stores into the output block, last store first: row `k` of the block is
    the `k`-th half-overlapping window of the group the point handles. -/
def outPieces (x0 : Vec F S16x1000x64 .f32) (x1 : Vec F S16x200x64 .f32) : List (View.Piece (Elt F) S16x8x250x64 .f32) :=
  [⟨rO7, k0_pay3 (k0_pay4 (View.ld x0 rI0)) (k0_pay5 (View.ld x1 rI1))⟩,
   ⟨rO6, k0_pay2 (k0_pay4 (View.ld x0 rI0))⟩,
   ⟨rO5, k0_pay1 (k0_pay10 (View.ld x0 rI0))⟩,
   ⟨rO4, k0_pay11 (View.ld x0 rI0)⟩,
   ⟨rO3, k0_pay9 (View.ld x0 rI0)⟩,
   ⟨rO2, k0_pay8 (View.ld x0 rI0)⟩,
   ⟨rO1, k0_pay7 (View.ld x0 rI0)⟩,
   ⟨rO0, k0_pay6 (View.ld x0 rI0)⟩]

/-- What the output's staging buffer holds after the body, from the two input blocks. -/
def outBlk (x0 : Vec F S16x1000x64 .f32) (x1 : Vec F S16x200x64 .f32) : Vec F S16x8x250x64 .f32 :=
  View.canon (outPieces x0 x1)

/-- The eight stored rows tile the output block. -/
theorem outCover (p0 p1 p2 p3 p4 p5 p6 p7 : Vec F S16x1x250x64 .f32) (y : S16x8x250x64.Idx) :
    ∃ pc ∈ ([⟨rO7, p7⟩, ⟨rO6, p6⟩, ⟨rO5, p5⟩, ⟨rO4, p4⟩, ⟨rO3, p3⟩, ⟨rO2, p2⟩, ⟨rO1, p1⟩, ⟨rO0, p0⟩] : List (View.Piece (Elt F) S16x8x250x64 .f32)), y ∈ pc.1.set :=
  View.cover_of_tiled [⟨rO7, p7⟩, ⟨rO6, p6⟩, ⟨rO5, p5⟩, ⟨rO4, p4⟩, ⟨rO3, p3⟩, ⟨rO2, p2⟩, ⟨rO1, p1⟩, ⟨rO0, p0⟩] S16x1x250x64.size (by rfl) y

/-! ## The body's triple -/

set_option maxHeartbeats 1000000 in
theorem sound_kernel (c : Dev nD) (E : Set ℕ) (i : grid0.Coords)
    (arg1 : Memref sig .tc .vmem S16x1000x64 .f32) (harg1 : arg1.IsWhole)
    (arg2 : Memref sig .tc .vmem S16x200x64 .f32) (harg2 : arg2.IsWhole)
    (arg3 : Memref sig .tc .vmem S16x8x250x64 .f32) (harg3 : arg3.IsWhole)
    (x0 : Vec F S16x1000x64 .f32) (x1 : Vec F S16x200x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (outBlk x0 x1)) -∗ K ⟨⟩))
      ⊢ wp frame (wpE (defs₀ (F := F)) Variants.none c none) E (cc0__chunk_kernel i arg1 harg1 arg2 harg2 arg3 harg3) K := by
  simp only [cc0__chunk_kernel_eq_skeleton]; unfold cc0__chunk_kernel_skel
  simp only [k0_part1_eq_skeleton]
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (outCover _ _ _ _ _ _ _ _)

/-! ## The pipeline's proof data -/

/-- An input window's staging block once the fetch at point `t` has landed: the array's block there. No block
    overhangs its array on the grid, so the fetch fills the whole buffer and the filler below is never read. -/
def inBlk (c : Dev nD) (w : Fin cfg0.W) (t : Fin cfg0.N) : (cfg0.win w).block.Idx → Elt F (cfg0.win w).elt :=
  (cfg0.win w).fill (cfg0.grid.coords t) (fun _ => Classical.arbitrary _) (iblk m c w t)

/-- The proof data on core `c`: the arrays as the region finds them; after the body at point `t` each input's
    buffer at its block and the output's at the eight windows cut from them; the two input windows read ONE
    array, so each holds half of it; nothing owed. -/
def dats (_ : Fin 1) (c : Dev nD) : Dat τ (Elt F) Unit ℕ (UR sig nD τ) ℕ cfg0 c where
  A w := V m c (Pipeline.arrRef spec0 w)
  after w t := match w with
    | ⟨0, _⟩ => inBlk m c 0 t
    | ⟨1, _⟩ => inBlk m c 1 t
    | ⟨2, _⟩ => outBlk (inBlk m c 0 t) (inBlk m c 1 t)
  Φ _ := iprop(emp)
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = inBlk m c 0 t := by dsimp only [dats]
theorem after_1 (c : Dev nD) (t : Fin cfg0.N) : (dats m 0 c).after 1 t = inBlk m c 1 t := by dsimp only [dats]
theorem after_2 (c : Dev nD) (t : Fin cfg0.N) : (dats m 0 c).after 2 t = outBlk (inBlk m c 0 t) (inBlk m c 1 t) := by
  dsimp only [dats]

/-- What the body finds in an input's buffer: its block, whatever the buffer held before the fetch. -/
theorem before_0 (c : Dev nD) (t : Fin cfg0.N) (d) : (dats m 0 c).before 0 t d = inBlk m c 0 t := by
  unfold Dat.before; rw [if_pos (fetch0_0 t)]
  rw [(dats m 0 c).fetched_of_clip_none 0 t (clip0_none t) d (fun _ => Classical.arbitrary _)]
  unfold Dat.fetched Dat.blockOf inBlk iblk
  rw [A_eq]
theorem before_1 (c : Dev nD) (t : Fin cfg0.N) (d) : (dats m 0 c).before 1 t d = inBlk m c 1 t := by
  unfold Dat.before; rw [if_pos (fetch0_1 t)]
  rw [(dats m 0 c).fetched_of_clip_none 1 t (clip1_none t) d (fun _ => Classical.arbitrary _)]
  unfold Dat.fetched Dat.blockOf inBlk iblk
  rw [A_eq]

/-! ## The body obligation -/

theorem body_obligation (c : Dev nD) : BodyObligationLoose (dats (F := F) m 0 c) (defs₀ (F := F)) Variants.none () Set.univ := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩⟩
  rw [before_0 m c t d0, before_1 m c t d1]
  iapply (sound_kernel (F := F) c Set.univ (grid0.coords t) (win0_0.stage (cfg0.slots t 0)) (hstage0_0 ((cfg0.slots t 0).cast nbuf0_0))
    (win0_1.stage (cfg0.slots t 1)) (hstage0_1 ((cfg0.slots t 1).cast nbuf0_1)) (win0_2.stage (cfg0.slots t 2)) (hstage0_2 ((cfg0.slots t 2).cast nbuf0_2))
    (inBlk m c 0 t) (inBlk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]
  · iexists (inBlk m c 0 t)
    rw [after_0, Window.fill_cut]
    iexact H0
  isplitl [H1]
  · iexists (inBlk m c 1 t)
    rw [after_1, Window.fill_cut]
    iexact H1
  · rw [after_2]
    iexact H2

end Cert.Kernel.Chunk

end
-- ==== Proof.KRun.lean ====
/-
  The run of the kernel's program: the padding of the signal, the 32 grid points, and the slice that keeps the
  first 255 windows. The two input windows read one array — the padded signal — which is held whole when the
  region is entered and split into two halves, one per window; the result array is held whole, and the slice
  after the region reads it and writes the final result. Every weakly fair execution terminates, the final
  result is the slice of what the 32 write-backs left in the result array, and the argument ends as launched.
-/
import proofs.«115234_j62783831933059_2_alg».proof.Proof.KBody

set_option maxRecDepth 16384

noncomputable section

namespace Cert.Kernel.Chunk

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The launch

The two input windows read ONE array, so the launch theorem for windows that may share arrays is used: the
array behind them, held whole at the region's entry, is split into two halves, one per window; the slice
that follows the region runs from the result array the region wrote. -/

/-- The two distinct buffers behind the three windows' arrays. -/
theorem arrBufs_eq (c : Dev nD) (W : (b : Ref sig .tc) → Buf (Elt F) ((c : Thread nD τ).loc b)) :
    (Pipeline.arrBufs spec0 c W : sProp 𝕄)
      = iprop((((c : Thread nD τ).loc main_v0) ↦{fullShare} W main_v0) ∗ (((c : Thread nD τ).loc main_v1) ↦{fullShare} W main_v1)) := by
  unfold Pipeline.arrBufs
  exact bigSep_eq_bigSepL_of_eq [main_v0, main_v1] (by decide) (by decide) _

/-- The windows' arrays one by one: the padded signal at a half share twice, the result whole. -/
theorem arrays_eq3 (c : Dev nD) (G : (w : Fin cfg0.W) → Buf (Elt F) ((cfg0.win w).arr.view.loc (c.tc : Thread nD τ))) :
    ((dats m 0 c).arrays G : sProp 𝕄)
      = iprop((((c : Thread nD τ).loc main_v0) ↦{fullShare.left} G 0) ∗ (((c : Thread nD τ).loc main_v0) ↦{fullShare.right} G 1)
          ∗ (((c : Thread nD τ).loc main_v1) ↦{fullShare} G 2)) := by
  unfold Dat.arrays
  rw [bigSep_W0]
  show iprop((((Memref.whole main_v0 : Memref sig .tc .hbm S16x32256x64 .f32).view.loc (c.tc : Thread nD τ)) ↦[(Memref.whole main_v0 : Memref sig .tc .hbm S16x32256x64 .f32).view.set]{fullShare.left} G 0)
      ∗ (((Memref.whole main_v0 : Memref sig .tc .hbm S16x32256x64 .f32).view.loc (c.tc : Thread nD τ)) ↦[(Memref.whole main_v0 : Memref sig .tc .hbm S16x32256x64 .f32).view.set]{fullShare.right} G 1)
      ∗ (((Memref.whole main_v1 : Memref sig .tc .hbm S16x256x250x64 .f32).view.loc (c.tc : Thread nD τ)) ↦[(Memref.whole main_v1 : Memref sig .tc .hbm S16x256x250x64 .f32).view.set]{fullShare} G 2)) = _
  rw [(Memref.isWhole_whole main_v0).set_eq_univ, (Memref.isWhole_whole main_v1).set_eq_univ]

theorem hsplit (c : Dev nD) :
    (Pipeline.arrBufs spec0 c (V m c) : sProp 𝕄) ⊢ (dats m 0 c).arrays ((dats m 0 c).arrAt · 0) := by
  rw [arrBufs_eq, arrays_eq3]
  iintro ⟨H0, H1⟩
  ihave H := (pointsTo_share (PosShare.mem_left_op_right fullShare)).1 $$ H0
  icases H with ⟨Hl, Hr⟩
  isplitl [Hl]; · iexact Hl
  isplitl [Hr]; · iexact Hr
  iexact H1

/-- Buffer contents at the region's exit: the result array at what the write-backs left, every other buffer
    as the region found it. -/
def Wx (c : Dev nD) : Valuation τ sig (Elt F) :=
  Function.update (V0 m c) (Proc.devRef .tc main_v1) ((dats m 0 c).arrAt 2 cfg0.N)

theorem Wx_v1 (c : Dev nD) : Wx m c (Proc.devRef .tc main_v1) = (dats m 0 c).arrAt 2 cfg0.N := by
  unfold Wx; exact Function.update_self _ _ _
theorem Wx_ne (c : Dev nD) (b : Ref sig .tc) (h : b ≠ main_v1) : Wx m c (Proc.devRef .tc b) = V m c b := by
  unfold Wx; exact Function.update_of_ne (StableHlo.devRef_ne_of_ne h) _ _

/-- The slice reads the result array and writes the final result; nothing else changes. -/
theorem Wend_v2 (c : Dev nD) : StableHlo.after hostOps1 (Wx m c) (Proc.devRef .tc main_v2)
    = extractStridedSlice S16x255x250x64 ![0, 0, 0, 0] ((dats m 0 c).arrAt 2 cfg0.N) slices_S16x256x250x64_S16x255x250x64_0_0_0_0 := by
  after_results
  rw [Wx_v1]
theorem Wend_ne (c : Dev nD) (b : Ref sig .tc) (h : b ≠ main_v2) : StableHlo.after hostOps1 (Wx m c) (Proc.devRef .tc b) = Wx m c (Proc.devRef .tc b) :=
  StableHlo.after_of_forall_not_mem (b := Proc.devRef .tc b) _ _ (List.forall_iff_forall_mem.mp (by
    simp only [hostOps1, List.Forall, StableHlo.unary_writes, Finset.mem_singleton]
    exact StableHlo.devRef_ne_of_ne h))

/-- The two buffers the slice touches. -/
abbrev tailSet : Finset (DevRef τ sig) := {Proc.devRef .tc main_v1, Proc.devRef .tc main_v2}

theorem held_tailSet (c : Dev nD) (W : Valuation τ sig (Elt F)) :
    (StableHlo.held (c.tc : Thread nD τ) tailSet W : sProp 𝕄)
      = iprop((((c : Thread nD τ).loc main_v1) ↦{fullShare} W (Proc.devRef .tc main_v1)) ∗ (((c : Thread nD τ).loc main_v2) ↦{fullShare} W (Proc.devRef .tc main_v2))) := by
  unfold StableHlo.held tailSet
  rw [bigSep_insert (by decide), bigSep_singleton]
  rfl

/-- The slice after the region: it runs from the result array as the region left it and the final result's
    buffer, and leaves both input halves and every other buffer alone. -/
theorem htail (c : Dev nD) (Q' : PUnit → sProp 𝕄) :
    iprop((iprop((dats m 0 c).arrays ((dats m 0 c).arrAt · cfg0.N) ∗ Pipeline.unscopedRest spec0 c (fun b => StableHlo.after hostOps1 (Wx m c) (Proc.devRef .tc b))) -∗ Q' ⟨⟩)
        ∗ boundary (c.tc : Thread nD τ) ∗ (dats m 0 c).arrays ((dats m 0 c).arrAt · cfg0.N) ∗ Pipeline.unscopedRest spec0 c (V m c))
      ⊢ wp frame (wpE (defs (F := F)) (Variants.lift Variants.none) (c.tc : Thread nD τ) none) Set.univ (Pipeline.chain [StableHlo.seq hostOps1]) Q' := by
  rw [arrays_eq3, unscopedRest0_eq, unscopedRest0_eq]
  iintro ⟨Hk, Hb, ⟨Ha0, Ha1, Ha2⟩, ⟨Harg, Hc, Hcv, Hv2⟩⟩
  rw [Pipeline.chain_cons, Pipeline.chain_nil]
  iapply (StableHlo.wp_seq (Variants.lift Variants.none) none Set.univ c tailSet _ hostOps1
    (fun op hop => by
      simp only [hostOps1, List.mem_cons, List.mem_nil_iff, or_false] at hop
      subst hop; exact Finset.Subset.refl _)
    (fun op hop => (List.forall_iff_forall_mem.mp hostOps1_fresh) op hop) (Wx m c)) $$ [Hb Ha2 Hv2]
  · isplitl [Hb]; · iexact Hb
    rw [held_tailSet, Wx_v1, Wx_ne m c main_v2 (by decide)]
    isplitl [Ha2]; · iexact Ha2
    iexact Hv2
  iintro ⟨Hb, Hh⟩
  rw [wp_pure]; imodintro
  iapply Hk
  rw [held_tailSet, Wend_ne m c main_v1 (by decide), Wx_v1,
    Wend_ne m c main_arg0 (by decide), Wx_ne m c main_arg0 (by decide),
    Wend_ne m c main_c (by decide), Wx_ne m c main_c (by decide),
    Wend_ne m c main_call0_v0 (by decide), Wx_ne m c main_call0_v0 (by decide)]
  show (_ : sProp 𝕄) ⊢ _
  iintro ⟨⟨⟨⟨⟨⟨Ha0, Ha1⟩, Harg⟩, Hc⟩, Hcv⟩, -⟩, H1, H2⟩
  isplitl [Ha0 Ha1 H1]
  · isplitl [Ha0]; · iexact Ha0
    isplitl [Ha1]; · iexact Ha1
    iexact H1
  isplitl [Harg]; · iexact Harg
  isplitl [Hc]; · iexact Hc
  isplitl [Hcv]; · iexact Hcv
  iexact H2

/-- No host operation before the region writes the argument: the region finds it as launched. -/
theorem V_main_arg0 (c : Dev nD) : V m c main_arg0 = m ((c : Thread nD τ).loc main_arg0) := by
  show StableHlo.after (List.flatten [hostOps0, hostOps0_1]) (fun b => m (c, b)) (Proc.devRef .tc main_arg0) = _
  simp only [hostOps0, hostOps0_1, List.flatten_cons, List.flatten_nil, List.append_nil, List.cons_append, List.nil_append]
  after_results

/-- The unscoped buffers that are no window's array. -/
abbrev restSet : Finset (Ref sig .tc) := (Finset.univ.filter fun b : Ref sig .tc => ¬ b.isScoped) \ Finset.univ.image (Pipeline.arrRef spec0)

/-- What every weakly fair run ends with, on every core: the final result is the slice of what the region's
    write-backs left in the result array, and the argument is as launched. -/
def QC : PUnit × MemSt nD τ sig (Elt F) → Prop := fun r =>
  ∀ c : Dev nD,
    r.2.mem ((c.tc : Thread nD τ).loc main_v2)
        = extractStridedSlice S16x255x250x64 ![0, 0, 0, 0] ((dats m 0 c).arrAt 2 cfg0.N) slices_S16x256x250x64_S16x255x250x64_0_0_0_0
    ∧ r.2.mem ((c.tc : Thread nD τ).loc main_arg0) = m ((c.tc : Thread nD τ).loc main_arg0)

set_option backward.isDefEq.respectTransparency.types false in
theorem run_main : θ_run defs (onTc (τ := τ) (main (F := F))) (s₀ m ρ) (QC m) :=
  Pipeline.θ_run_region_noSem_pf_tail (fun q => (cfgs q).toPCfg (Val := Elt F)) (fun q => (cfgs q).toPCfg_adm) (dats m) () cellOf_inj (0 : Fin 1)
    winFacts₀0 (Pipeline.PreFacts.none _) emb₁ defs₀ Variants.none m ρ main (fun _ => Pipeline.chain [StableHlo.seq hostOps1])
    (hbody := body_obligation m)
    (hne := block_pos0) (harr := arr_whole0) (hstage := stage_whole0) (howed := fun _ _ => rfl)
    (u₀ := initOf (Pipeline.cells cfgs cellOf_inj) (Pipeline.launchToks cfgs cellOf_inj)) (hu₀ := BI.Entails.refl _)
    (V := V m) (hmain := hmain m Variants.none)
    (hsplit := hsplit m) (hpf := fun _ k => k.elim0)
    (X := fun _ => iprop(emp)) (Y := fun _ => iprop(emp))
    (Z := fun c => Pipeline.unscopedRest spec0 c (V m c))
    (Z' := fun c => Pipeline.unscopedRest spec0 c (fun b => StableHlo.after hostOps1 (Wx m c) (Proc.devRef .tc b)))
    (hX := fun c => by
      rw [Pipeline.unscopedRestP_none]; iintro H; isplitr; · iempintro
      iexact H)
    (hin := fun c => by iintro -; iempintro)
    (hout := fun c => by rw [scopedRest0_eq]; iintro -; isplitr <;> iempintro)
    (htail := htail m)
    (QY := fun c s => ∀ b ∈ restSet, s.mem ((c.tc : Thread nD τ).loc b) = StableHlo.after hostOps1 (Wx m c) (Proc.devRef .tc b))
    (hY := fun c s' => by
      iintro ⟨-, HU, HSI⟩
      unfold Pipeline.unscopedRest
      imodintro
      iapply (pointsTo_read_all restSet (fun b => (c.tc : Thread nD τ).loc b) (fun b => StableHlo.after hostOps1 (Wx m c) (Proc.devRef .tc b)) s')
      isplitl [HU] <;> iassumption)
    (hQ := fun s h c => ⟨((h c).2.2 main_v2 (by decide)).trans (Wend_v2 m c),
      ((h c).2.2 main_arg0 (by decide)).trans ((Wend_ne m c main_arg0 (by decide)).trans ((Wx_ne m c main_arg0 (by decide)).trans (V_main_arg0 m c)))⟩)

end Cert.Kernel.Chunk

end
-- ==== Proof.KiBody.lean ====
/-
  The kernel's body at one grid point. The grid has 32 points; point `t` is handed group `t` of the padded
  signal (1000 rows) and a look-ahead of 200 rows that starts where group `t + 1` starts, and stores the eight
  half-overlapping windows that start in the group: window `k` is rows `125 k … 125 k + 249` of the group, and
  the last one takes its second half from the look-ahead. No block of either input overhangs the padded signal
  on the grid, so each fetch fills its whole buffer. Both input windows read the SAME array, so each holds half
  of it. This file: what the body leaves in the output block as the pieces it stores, the body's run, and the
  obligation the launch asks of the body at every point. Everything is stated for any float instance: nothing
  is computed, rows are only moved.
-/
import proofs.«115234_j62783831933059_2_alg».proof.Proof.Gen.KernelIdeal.Launch
import proofs.«115234_j62783831933059_2_alg».proof.Proof.Gen.KernelIdeal.Skeleton
import proofs.«115234_j62783831933059_2_alg».proof.Proof.Gen.KernelIdeal.Points
import Idealize.ShloMosaic.Lib.Pipeline.FrameBody
import Idealize.ShloMosaic.Lib.Pipeline.FrameSuffix
import Idealize.ShloMosaic.Lib.Tactic

set_option maxRecDepth 16384

noncomputable section

namespace Cert.KernelIdeal.Chunk

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The schedule's cuts: no block of an input window overhangs its array on the grid -/

theorem clip0_none : ∀ t : Fin cfg0.N, ∀ a, (cfg0.win 0).clip (cfg0.grid.coords t) a = none :=
  (by decide +kernel : ∀ t : Fin grid0.N, ∀ a, win0_0.clip (grid0.coords t) a = none)
theorem clip1_none : ∀ t : Fin cfg0.N, ∀ a, (cfg0.win 1).clip (cfg0.grid.coords t) a = none :=
  (by decide +kernel : ∀ t : Fin grid0.N, ∀ a, win0_1.clip (grid0.coords t) a = none)

/-! ## @main around the region -/

abbrev V0 (c : Dev nD) : Valuation τ sig (Elt F) := StableHlo.after (List.flatten [hostOps0, hostOps0_1]) (fun b => m (c, b))
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1] [hostOps1] (by simp only [List.Forall]; exact ⟨hostOps0_sub, hostOps0_1_sub⟩)
    (by simp only [List.Forall]; exact ⟨hostOps0_fresh, hostOps0_1_fresh⟩) main_chain

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's accesses -/

abbrev rI0 : Rect S16x1000x64 := Rect.unit (s := S16x1000x64) ![0, 0, 0] S16x1000x64.size inb_S16x1000x64_S16x1000x64_0_0_0
abbrev rI1 : Rect S16x200x64 := Rect.unit (s := S16x200x64) ![0, 0, 0] S16x200x64.size inb_S16x200x64_S16x200x64_0_0_0
abbrev rO0 : Rect S16x8x250x64 := Rect.unit (s := S16x8x250x64) ![0, 0, 0, 0] S16x1x250x64.size inb_S16x8x250x64_S16x1x250x64_0_0_0_0
abbrev rO1 : Rect S16x8x250x64 := Rect.unit (s := S16x8x250x64) ![0, 1, 0, 0] S16x1x250x64.size inb_S16x8x250x64_S16x1x250x64_0_1_0_0
abbrev rO2 : Rect S16x8x250x64 := Rect.unit (s := S16x8x250x64) ![0, 2, 0, 0] S16x1x250x64.size inb_S16x8x250x64_S16x1x250x64_0_2_0_0
abbrev rO3 : Rect S16x8x250x64 := Rect.unit (s := S16x8x250x64) ![0, 3, 0, 0] S16x1x250x64.size inb_S16x8x250x64_S16x1x250x64_0_3_0_0
abbrev rO4 : Rect S16x8x250x64 := Rect.unit (s := S16x8x250x64) ![0, 4, 0, 0] S16x1x250x64.size inb_S16x8x250x64_S16x1x250x64_0_4_0_0
abbrev rO5 : Rect S16x8x250x64 := Rect.unit (s := S16x8x250x64) ![0, 5, 0, 0] S16x1x250x64.size inb_S16x8x250x64_S16x1x250x64_0_5_0_0
abbrev rO6 : Rect S16x8x250x64 := Rect.unit (s := S16x8x250x64) ![0, 6, 0, 0] S16x1x250x64.size inb_S16x8x250x64_S16x1x250x64_0_6_0_0
abbrev rO7 : Rect S16x8x250x64 := Rect.unit (s := S16x8x250x64) ![0, 7, 0, 0] S16x1x250x64.size inb_S16x8x250x64_S16x1x250x64_0_7_0_0

/-- The eight rows the body stores into the output block, last store first: row `k` of the block is
    the `k`-th half-overlapping window of the group the point handles. -/
def outPieces (x0 : Vec F S16x1000x64 .f32) (x1 : Vec F S16x200x64 .f32) : List (View.Piece (Elt F) S16x8x250x64 .f32) :=
  [⟨rO7, k0_pay3 (k0_pay4 (View.ld x0 rI0)) (k0_pay5 (View.ld x1 rI1))⟩,
   ⟨rO6, k0_pay2 (k0_pay4 (View.ld x0 rI0))⟩,
   ⟨rO5, k0_pay1 (k0_pay10 (View.ld x0 rI0))⟩,
   ⟨rO4, k0_pay11 (View.ld x0 rI0)⟩,
   ⟨rO3, k0_pay9 (View.ld x0 rI0)⟩,
   ⟨rO2, k0_pay8 (View.ld x0 rI0)⟩,
   ⟨rO1, k0_pay7 (View.ld x0 rI0)⟩,
   ⟨rO0, k0_pay6 (View.ld x0 rI0)⟩]

/-- What the output's staging buffer holds after the body, from the two input blocks. -/
def outBlk (x0 : Vec F S16x1000x64 .f32) (x1 : Vec F S16x200x64 .f32) : Vec F S16x8x250x64 .f32 :=
  View.canon (outPieces x0 x1)

/-- The eight stored rows tile the output block. -/
theorem outCover (p0 p1 p2 p3 p4 p5 p6 p7 : Vec F S16x1x250x64 .f32) (y : S16x8x250x64.Idx) :
    ∃ pc ∈ ([⟨rO7, p7⟩, ⟨rO6, p6⟩, ⟨rO5, p5⟩, ⟨rO4, p4⟩, ⟨rO3, p3⟩, ⟨rO2, p2⟩, ⟨rO1, p1⟩, ⟨rO0, p0⟩] : List (View.Piece (Elt F) S16x8x250x64 .f32)), y ∈ pc.1.set :=
  View.cover_of_tiled [⟨rO7, p7⟩, ⟨rO6, p6⟩, ⟨rO5, p5⟩, ⟨rO4, p4⟩, ⟨rO3, p3⟩, ⟨rO2, p2⟩, ⟨rO1, p1⟩, ⟨rO0, p0⟩] S16x1x250x64.size (by rfl) y

/-! ## The body's triple -/

set_option maxHeartbeats 1000000 in
theorem sound_kernel (c : Dev nD) (E : Set ℕ) (i : grid0.Coords)
    (arg1 : Memref sig .tc .vmem S16x1000x64 .f32) (harg1 : arg1.IsWhole)
    (arg2 : Memref sig .tc .vmem S16x200x64 .f32) (harg2 : arg2.IsWhole)
    (arg3 : Memref sig .tc .vmem S16x8x250x64 .f32) (harg3 : arg3.IsWhole)
    (x0 : Vec F S16x1000x64 .f32) (x1 : Vec F S16x200x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (outBlk x0 x1)) -∗ K ⟨⟩))
      ⊢ wp frame (wpE (defs₀ (F := F)) Variants.none c none) E (cc0__chunk_kernel i arg1 harg1 arg2 harg2 arg3 harg3) K := by
  simp only [cc0__chunk_kernel_eq_skeleton]; unfold cc0__chunk_kernel_skel
  simp only [k0_part1_eq_skeleton]
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (outCover _ _ _ _ _ _ _ _)

/-! ## The pipeline's proof data -/

/-- An input window's staging block once the fetch at point `t` has landed: the array's block there. No block
    overhangs its array on the grid, so the fetch fills the whole buffer and the filler below is never read. -/
def inBlk (c : Dev nD) (w : Fin cfg0.W) (t : Fin cfg0.N) : (cfg0.win w).block.Idx → Elt F (cfg0.win w).elt :=
  (cfg0.win w).fill (cfg0.grid.coords t) (fun _ => Classical.arbitrary _) (iblk m c w t)

/-- The proof data on core `c`: the arrays as the region finds them; after the body at point `t` each input's
    buffer at its block and the output's at the eight windows cut from them; the two input windows read ONE
    array, so each holds half of it; nothing owed. -/
def dats (_ : Fin 1) (c : Dev nD) : Dat τ (Elt F) Unit ℕ (UR sig nD τ) ℕ cfg0 c where
  A w := V m c (Pipeline.arrRef spec0 w)
  after w t := match w with
    | ⟨0, _⟩ => inBlk m c 0 t
    | ⟨1, _⟩ => inBlk m c 1 t
    | ⟨2, _⟩ => outBlk (inBlk m c 0 t) (inBlk m c 1 t)
  Φ _ := iprop(emp)
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = inBlk m c 0 t := by dsimp only [dats]
theorem after_1 (c : Dev nD) (t : Fin cfg0.N) : (dats m 0 c).after 1 t = inBlk m c 1 t := by dsimp only [dats]
theorem after_2 (c : Dev nD) (t : Fin cfg0.N) : (dats m 0 c).after 2 t = outBlk (inBlk m c 0 t) (inBlk m c 1 t) := by
  dsimp only [dats]

/-- What the body finds in an input's buffer: its block, whatever the buffer held before the fetch. -/
theorem before_0 (c : Dev nD) (t : Fin cfg0.N) (d) : (dats m 0 c).before 0 t d = inBlk m c 0 t := by
  unfold Dat.before; rw [if_pos (fetch0_0 t)]
  rw [(dats m 0 c).fetched_of_clip_none 0 t (clip0_none t) d (fun _ => Classical.arbitrary _)]
  unfold Dat.fetched Dat.blockOf inBlk iblk
  rw [A_eq]
theorem before_1 (c : Dev nD) (t : Fin cfg0.N) (d) : (dats m 0 c).before 1 t d = inBlk m c 1 t := by
  unfold Dat.before; rw [if_pos (fetch0_1 t)]
  rw [(dats m 0 c).fetched_of_clip_none 1 t (clip1_none t) d (fun _ => Classical.arbitrary _)]
  unfold Dat.fetched Dat.blockOf inBlk iblk
  rw [A_eq]

/-! ## The body obligation -/

theorem body_obligation (c : Dev nD) : BodyObligationLoose (dats (F := F) m 0 c) (defs₀ (F := F)) Variants.none () Set.univ := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩⟩
  rw [before_0 m c t d0, before_1 m c t d1]
  iapply (sound_kernel (F := F) c Set.univ (grid0.coords t) (win0_0.stage (cfg0.slots t 0)) (hstage0_0 ((cfg0.slots t 0).cast nbuf0_0))
    (win0_1.stage (cfg0.slots t 1)) (hstage0_1 ((cfg0.slots t 1).cast nbuf0_1)) (win0_2.stage (cfg0.slots t 2)) (hstage0_2 ((cfg0.slots t 2).cast nbuf0_2))
    (inBlk m c 0 t) (inBlk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]
  · iexists (inBlk m c 0 t)
    rw [after_0, Window.fill_cut]
    iexact H0
  isplitl [H1]
  · iexists (inBlk m c 1 t)
    rw [after_1, Window.fill_cut]
    iexact H1
  · rw [after_2]
    iexact H2

end Cert.KernelIdeal.Chunk

end
-- ==== Proof.KiRun.lean ====
/-
  The run of the kernel's program: the padding of the signal, the 32 grid points, and the slice that keeps the
  first 255 windows. The two input windows read one array — the padded signal — which is held whole when the
  region is entered and split into two halves, one per window; the result array is held whole, and the slice
  after the region reads it and writes the final result. Every weakly fair execution terminates, the final
  result is the slice of what the 32 write-backs left in the result array, and the argument ends as launched.
-/
import proofs.«115234_j62783831933059_2_alg».proof.Proof.KiBody

set_option maxRecDepth 16384

noncomputable section

namespace Cert.KernelIdeal.Chunk

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The launch

The two input windows read ONE array, so the launch theorem for windows that may share arrays is used: the
array behind them, held whole at the region's entry, is split into two halves, one per window; the slice
that follows the region runs from the result array the region wrote. -/

/-- The two distinct buffers behind the three windows' arrays. -/
theorem arrBufs_eq (c : Dev nD) (W : (b : Ref sig .tc) → Buf (Elt F) ((c : Thread nD τ).loc b)) :
    (Pipeline.arrBufs spec0 c W : sProp 𝕄)
      = iprop((((c : Thread nD τ).loc main_v0) ↦{fullShare} W main_v0) ∗ (((c : Thread nD τ).loc main_v1) ↦{fullShare} W main_v1)) := by
  unfold Pipeline.arrBufs
  exact bigSep_eq_bigSepL_of_eq [main_v0, main_v1] (by decide) (by decide) _

/-- The windows' arrays one by one: the padded signal at a half share twice, the result whole. -/
theorem arrays_eq3 (c : Dev nD) (G : (w : Fin cfg0.W) → Buf (Elt F) ((cfg0.win w).arr.view.loc (c.tc : Thread nD τ))) :
    ((dats m 0 c).arrays G : sProp 𝕄)
      = iprop((((c : Thread nD τ).loc main_v0) ↦{fullShare.left} G 0) ∗ (((c : Thread nD τ).loc main_v0) ↦{fullShare.right} G 1)
          ∗ (((c : Thread nD τ).loc main_v1) ↦{fullShare} G 2)) := by
  unfold Dat.arrays
  rw [bigSep_W0]
  show iprop((((Memref.whole main_v0 : Memref sig .tc .hbm S16x32256x64 .f32).view.loc (c.tc : Thread nD τ)) ↦[(Memref.whole main_v0 : Memref sig .tc .hbm S16x32256x64 .f32).view.set]{fullShare.left} G 0)
      ∗ (((Memref.whole main_v0 : Memref sig .tc .hbm S16x32256x64 .f32).view.loc (c.tc : Thread nD τ)) ↦[(Memref.whole main_v0 : Memref sig .tc .hbm S16x32256x64 .f32).view.set]{fullShare.right} G 1)
      ∗ (((Memref.whole main_v1 : Memref sig .tc .hbm S16x256x250x64 .f32).view.loc (c.tc : Thread nD τ)) ↦[(Memref.whole main_v1 : Memref sig .tc .hbm S16x256x250x64 .f32).view.set]{fullShare} G 2)) = _
  rw [(Memref.isWhole_whole main_v0).set_eq_univ, (Memref.isWhole_whole main_v1).set_eq_univ]

theorem hsplit (c : Dev nD) :
    (Pipeline.arrBufs spec0 c (V m c) : sProp 𝕄) ⊢ (dats m 0 c).arrays ((dats m 0 c).arrAt · 0) := by
  rw [arrBufs_eq, arrays_eq3]
  iintro ⟨H0, H1⟩
  ihave H := (pointsTo_share (PosShare.mem_left_op_right fullShare)).1 $$ H0
  icases H with ⟨Hl, Hr⟩
  isplitl [Hl]; · iexact Hl
  isplitl [Hr]; · iexact Hr
  iexact H1

/-- Buffer contents at the region's exit: the result array at what the write-backs left, every other buffer
    as the region found it. -/
def Wx (c : Dev nD) : Valuation τ sig (Elt F) :=
  Function.update (V0 m c) (Proc.devRef .tc main_v1) ((dats m 0 c).arrAt 2 cfg0.N)

theorem Wx_v1 (c : Dev nD) : Wx m c (Proc.devRef .tc main_v1) = (dats m 0 c).arrAt 2 cfg0.N := by
  unfold Wx; exact Function.update_self _ _ _
theorem Wx_ne (c : Dev nD) (b : Ref sig .tc) (h : b ≠ main_v1) : Wx m c (Proc.devRef .tc b) = V m c b := by
  unfold Wx; exact Function.update_of_ne (StableHlo.devRef_ne_of_ne h) _ _

/-- The slice reads the result array and writes the final result; nothing else changes. -/
theorem Wend_v2 (c : Dev nD) : StableHlo.after hostOps1 (Wx m c) (Proc.devRef .tc main_v2)
    = extractStridedSlice S16x255x250x64 ![0, 0, 0, 0] ((dats m 0 c).arrAt 2 cfg0.N) slices_S16x256x250x64_S16x255x250x64_0_0_0_0 := by
  after_results
  rw [Wx_v1]
theorem Wend_ne (c : Dev nD) (b : Ref sig .tc) (h : b ≠ main_v2) : StableHlo.after hostOps1 (Wx m c) (Proc.devRef .tc b) = Wx m c (Proc.devRef .tc b) :=
  StableHlo.after_of_forall_not_mem (b := Proc.devRef .tc b) _ _ (List.forall_iff_forall_mem.mp (by
    simp only [hostOps1, List.Forall, StableHlo.unary_writes, Finset.mem_singleton]
    exact StableHlo.devRef_ne_of_ne h))

/-- The two buffers the slice touches. -/
abbrev tailSet : Finset (DevRef τ sig) := {Proc.devRef .tc main_v1, Proc.devRef .tc main_v2}

theorem held_tailSet (c : Dev nD) (W : Valuation τ sig (Elt F)) :
    (StableHlo.held (c.tc : Thread nD τ) tailSet W : sProp 𝕄)
      = iprop((((c : Thread nD τ).loc main_v1) ↦{fullShare} W (Proc.devRef .tc main_v1)) ∗ (((c : Thread nD τ).loc main_v2) ↦{fullShare} W (Proc.devRef .tc main_v2))) := by
  unfold StableHlo.held tailSet
  rw [bigSep_insert (by decide), bigSep_singleton]
  rfl

/-- The slice after the region: it runs from the result array as the region left it and the final result's
    buffer, and leaves both input halves and every other buffer alone. -/
theorem htail (c : Dev nD) (Q' : PUnit → sProp 𝕄) :
    iprop((iprop((dats m 0 c).arrays ((dats m 0 c).arrAt · cfg0.N) ∗ Pipeline.unscopedRest spec0 c (fun b => StableHlo.after hostOps1 (Wx m c) (Proc.devRef .tc b))) -∗ Q' ⟨⟩)
        ∗ boundary (c.tc : Thread nD τ) ∗ (dats m 0 c).arrays ((dats m 0 c).arrAt · cfg0.N) ∗ Pipeline.unscopedRest spec0 c (V m c))
      ⊢ wp frame (wpE (defs (F := F)) (Variants.lift Variants.none) (c.tc : Thread nD τ) none) Set.univ (Pipeline.chain [StableHlo.seq hostOps1]) Q' := by
  rw [arrays_eq3, unscopedRest0_eq, unscopedRest0_eq]
  iintro ⟨Hk, Hb, ⟨Ha0, Ha1, Ha2⟩, ⟨Harg, Hc, Hcv, Hv2⟩⟩
  rw [Pipeline.chain_cons, Pipeline.chain_nil]
  iapply (StableHlo.wp_seq (Variants.lift Variants.none) none Set.univ c tailSet _ hostOps1
    (fun op hop => by
      simp only [hostOps1, List.mem_cons, List.mem_nil_iff, or_false] at hop
      subst hop; exact Finset.Subset.refl _)
    (fun op hop => (List.forall_iff_forall_mem.mp hostOps1_fresh) op hop) (Wx m c)) $$ [Hb Ha2 Hv2]
  · isplitl [Hb]; · iexact Hb
    rw [held_tailSet, Wx_v1, Wx_ne m c main_v2 (by decide)]
    isplitl [Ha2]; · iexact Ha2
    iexact Hv2
  iintro ⟨Hb, Hh⟩
  rw [wp_pure]; imodintro
  iapply Hk
  rw [held_tailSet, Wend_ne m c main_v1 (by decide), Wx_v1,
    Wend_ne m c main_arg0 (by decide), Wx_ne m c main_arg0 (by decide),
    Wend_ne m c main_c (by decide), Wx_ne m c main_c (by decide),
    Wend_ne m c main_call0_v0 (by decide), Wx_ne m c main_call0_v0 (by decide)]
  show (_ : sProp 𝕄) ⊢ _
  iintro ⟨⟨⟨⟨⟨⟨Ha0, Ha1⟩, Harg⟩, Hc⟩, Hcv⟩, -⟩, H1, H2⟩
  isplitl [Ha0 Ha1 H1]
  · isplitl [Ha0]; · iexact Ha0
    isplitl [Ha1]; · iexact Ha1
    iexact H1
  isplitl [Harg]; · iexact Harg
  isplitl [Hc]; · iexact Hc
  isplitl [Hcv]; · iexact Hcv
  iexact H2

/-- No host operation before the region writes the argument: the region finds it as launched. -/
theorem V_main_arg0 (c : Dev nD) : V m c main_arg0 = m ((c : Thread nD τ).loc main_arg0) := by
  show StableHlo.after (List.flatten [hostOps0, hostOps0_1]) (fun b => m (c, b)) (Proc.devRef .tc main_arg0) = _
  simp only [hostOps0, hostOps0_1, List.flatten_cons, List.flatten_nil, List.append_nil, List.cons_append, List.nil_append]
  after_results

/-- The unscoped buffers that are no window's array. -/
abbrev restSet : Finset (Ref sig .tc) := (Finset.univ.filter fun b : Ref sig .tc => ¬ b.isScoped) \ Finset.univ.image (Pipeline.arrRef spec0)

/-- What every weakly fair run ends with, on every core: the final result is the slice of what the region's
    write-backs left in the result array, and the argument is as launched. -/
def QC : PUnit × MemSt nD τ sig (Elt F) → Prop := fun r =>
  ∀ c : Dev nD,
    r.2.mem ((c.tc : Thread nD τ).loc main_v2)
        = extractStridedSlice S16x255x250x64 ![0, 0, 0, 0] ((dats m 0 c).arrAt 2 cfg0.N) slices_S16x256x250x64_S16x255x250x64_0_0_0_0
    ∧ r.2.mem ((c.tc : Thread nD τ).loc main_arg0) = m ((c.tc : Thread nD τ).loc main_arg0)

set_option backward.isDefEq.respectTransparency.types false in
theorem run_main : θ_run defs (onTc (τ := τ) (main (F := F))) (s₀ m ρ) (QC m) :=
  Pipeline.θ_run_region_noSem_pf_tail (fun q => (cfgs q).toPCfg (Val := Elt F)) (fun q => (cfgs q).toPCfg_adm) (dats m) () cellOf_inj (0 : Fin 1)
    winFacts₀0 (Pipeline.PreFacts.none _) emb₁ defs₀ Variants.none m ρ main (fun _ => Pipeline.chain [StableHlo.seq hostOps1])
    (hbody := body_obligation m)
    (hne := block_pos0) (harr := arr_whole0) (hstage := stage_whole0) (howed := fun _ _ => rfl)
    (u₀ := initOf (Pipeline.cells cfgs cellOf_inj) (Pipeline.launchToks cfgs cellOf_inj)) (hu₀ := BI.Entails.refl _)
    (V := V m) (hmain := hmain m Variants.none)
    (hsplit := hsplit m) (hpf := fun _ k => k.elim0)
    (X := fun _ => iprop(emp)) (Y := fun _ => iprop(emp))
    (Z := fun c => Pipeline.unscopedRest spec0 c (V m c))
    (Z' := fun c => Pipeline.unscopedRest spec0 c (fun b => StableHlo.after hostOps1 (Wx m c) (Proc.devRef .tc b)))
    (hX := fun c => by
      rw [Pipeline.unscopedRestP_none]; iintro H; isplitr; · iempintro
      iexact H)
    (hin := fun c => by iintro -; iempintro)
    (hout := fun c => by rw [scopedRest0_eq]; iintro -; isplitr <;> iempintro)
    (htail := htail m)
    (QY := fun c s => ∀ b ∈ restSet, s.mem ((c.tc : Thread nD τ).loc b) = StableHlo.after hostOps1 (Wx m c) (Proc.devRef .tc b))
    (hY := fun c s' => by
      iintro ⟨-, HU, HSI⟩
      unfold Pipeline.unscopedRest
      imodintro
      iapply (pointsTo_read_all restSet (fun b => (c.tc : Thread nD τ).loc b) (fun b => StableHlo.after hostOps1 (Wx m c) (Proc.devRef .tc b)) s')
      isplitl [HU] <;> iassumption)
    (hQ := fun s h c => ⟨((h c).2.2 main_v2 (by decide)).trans (Wend_v2 m c),
      ((h c).2.2 main_arg0 (by decide)).trans ((Wend_ne m c main_arg0 (by decide)).trans ((Wx_ne m c main_arg0 (by decide)).trans (V_main_arg0 m c)))⟩)

end Cert.KernelIdeal.Chunk

end
-- ==== Proof.LibHalfWindows.lean ====
/-
  Half-overlapping windows inside one group of a signal. A group is 1000 consecutive rows; the eight
  windows that START in it are rows `125 * k + r` (`k < 8`, `r < 250`). Seven of them lie inside the
  group; the last one runs 125 rows into the next group, of which the first 200 rows are at hand. So
  row `ρ = 125 * k + r` of the window stack is row `ρ` of the group when `ρ < 1000` and row `ρ - 1000` of
  the look-ahead otherwise. The lemmas below read, at one index, the layout operations that cut these
  windows: a unit-stride slice along the row axis, a cast that inserts a unit axis after the batch axis,
  and the concatenation of the group's tail with the look-ahead's head. Pure data movement: any element
  type.
-/
import Idealize.ShloMosaic.Lib.ValueIdx
import Idealize.ShloMosaic.Lib.Pipeline.Value

namespace Cert.HalfWindows

open Idealize.ShloMosaic Idealize.ShloMosaic.ValueIdx

variable {α : Type}

/-- A group of the signal, the look-ahead into the next group, one window, one window as a row of the
    stack, the tail and head halves, and the stack of eight windows. -/
abbrev SGroup : Shape := ⟨3, ![16, 1000, 64]⟩
abbrev SAhead : Shape := ⟨3, ![16, 200, 64]⟩
abbrev SWindow : Shape := ⟨3, ![16, 250, 64]⟩
abbrev SRow : Shape := ⟨4, ![16, 1, 250, 64]⟩
abbrev SHalf : Shape := ⟨3, ![16, 125, 64]⟩
abbrev SStack : Shape := ⟨4, ![16, 8, 250, 64]⟩

/-- The stack of eight windows as one function of the group and the look-ahead. -/
def stack (x : SGroup.Idx → α) (y : SAhead.Idx → α) : SStack.Idx → α := fun i =>
  if h : 125 * (i 1).val + (i 2).val < 1000 then x (ix3 (i 0) ⟨125 * (i 1).val + (i 2).val, h⟩ (i 3))
  else y (ix3 (i 0) ⟨125 * (i 1).val + (i 2).val - 1000, by
    have h1 : (i 1).val < 8 := (i 1).isLt
    have h2 : (i 2).val < 250 := (i 2).isLt
    omega⟩ (i 3))

/-- A cast that inserts a unit axis after the batch axis keeps the other three coordinates. -/
theorem addUnit_apply (v : SWindow.Idx → α) (h : SWindow.ShapeCasts SRow) (b : Fin 16) (u : Fin 1) (r : Fin 250) (f : Fin 64) :
    shapeCast SRow v h (ix4 b u r f) = v (ix3 b r f) := by
  refine shapeCast_apply v h _ _ ?_
  rw [Shape.rowMajor_val_three, Shape.rowMajor_val_four]
  show (b.val * 250 + r.val) * 64 + f.val = ((b.val * 1 + u.val) * 250 + r.val) * 64 + f.val
  have := u.isLt
  omega

/-- A window cut out of the group at row offset `o` reads the group `o` rows further down. -/
theorem window_apply (o : Nat) (x : SGroup.Idx → α) (h : SGroup.Slices ![0, o, 0] SWindow) (b : Fin 16) (r : Fin 250) (f : Fin 64)
    (hr : o + r.val < 1000) :
    extractStridedSlice SWindow ![0, o, 0] x h (ix3 b r f) = x (ix3 b ⟨o + r.val, hr⟩ f) := by
  refine extractStridedSlice_apply _ x h _ _ fun a => ?_
  match a with
  | ⟨0, _⟩ => show b.val = 0 + b.val; omega
  | ⟨1, _⟩ => rfl
  | ⟨2, _⟩ => show f.val = 0 + f.val; omega

/-- The same for a half window cut out of the group, -/
theorem tail_apply (o : Nat) (x : SGroup.Idx → α) (h : SGroup.Slices ![0, o, 0] SHalf) (b : Fin 16) (r : Fin 125) (f : Fin 64)
    (hr : o + r.val < 1000) :
    extractStridedSlice SHalf ![0, o, 0] x h (ix3 b r f) = x (ix3 b ⟨o + r.val, hr⟩ f) := by
  refine extractStridedSlice_apply _ x h _ _ fun a => ?_
  match a with
  | ⟨0, _⟩ => show b.val = 0 + b.val; omega
  | ⟨1, _⟩ => rfl
  | ⟨2, _⟩ => show f.val = 0 + f.val; omega

/-- and for the head of the look-ahead. -/
theorem head_apply (y : SAhead.Idx → α) (h : SAhead.Slices ![0, 0, 0] SHalf) (b : Fin 16) (r : Fin 125) (f : Fin 64) :
    extractStridedSlice SHalf ![0, 0, 0] y h (ix3 b r f) = y (ix3 b ⟨r.val, by have := r.isLt; omega⟩ f) := by
  refine extractStridedSlice_apply _ y h _ _ fun a => ?_
  match a with
  | ⟨0, _⟩ => show b.val = 0 + b.val; omega
  | ⟨1, _⟩ => show r.val = 0 + r.val; omega
  | ⟨2, _⟩ => show f.val = 0 + f.val; omega

/-- The last window: the group's last 125 rows followed by the look-ahead's first 125. -/
theorem last_apply (p : SHalf.Idx → α) (q : SHalf.Idx → α) (h : Shape.Concatenates [SHalf, SHalf] SWindow 1)
    (b : Fin 16) (r : Fin 250) (f : Fin 64) :
    concatenate SWindow 1 [⟨SHalf, p⟩, ⟨SHalf, q⟩] h (ix3 b r f)
      = if hr : r.val < 125 then p (ix3 b ⟨r.val, hr⟩ f) else q (ix3 b ⟨r.val - 125, by have := r.isLt; omega⟩ f) := by
  split
  · rename_i hr
    refine concatenate_pair_apply_left (t := SWindow) (1 : Fin 3) p q h _ rfl _ fun a => ?_
    match a with
    | ⟨0, _⟩ => rfl
    | ⟨1, _⟩ => rfl
    | ⟨2, _⟩ => rfl
  · rename_i hr
    refine concatenate_pair_apply_right (t := SWindow) (1 : Fin 3) p q h _ rfl rfl _ (fun a ha => ?_) ?_
    · match a with
      | ⟨0, _⟩ => rfl
      | ⟨1, _⟩ => exact absurd rfl ha
      | ⟨2, _⟩ => rfl
    · show (r.val - 125) + 125 = r.val
      omega

/-- Two indices into the look-ahead agree when their coordinates do. -/
theorem ahead_idx_ext {i i' : SAhead.Idx} (h0 : (i 0).val = (i' 0).val) (h1 : (i 1).val = (i' 1).val)
    (h2 : (i 2).val = (i' 2).val) : i = i' := by
  funext a
  match a with
  | ⟨0, _⟩ => exact Fin.ext h0
  | ⟨1, _⟩ => exact Fin.ext h1
  | ⟨2, _⟩ => exact Fin.ext h2

end Cert.HalfWindows
-- ==== Proof.KiStack.lean ====
/-
  The output block after the body is the stack of the eight windows of the point's two input blocks: each of
  the eight stored rows, read at an index, is a row of the group or — for the second half of the last window —
  a row of the look-ahead.
-/
import proofs.«115234_j62783831933059_2_alg».proof.Proof.KiBody
import proofs.«115234_j62783831933059_2_alg».proof.Proof.LibHalfWindows

set_option maxRecDepth 16384

noncomputable section

namespace Cert.KernelIdeal.Chunk

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the body leaves in the output block, as one function of the two input blocks -/

open Idealize.ShloMosaic.ValueIdx

theorem hz3 : (![0, 0, 0] : Fin 3 → Nat) = fun _ => 0 := funext fun a => by fin_cases a <;> rfl

theorem ld_cur (x0 : Vec F S16x1000x64 .f32) : View.ld x0 rI0 = x0 := View.ld_unit_zero (S := S16x1000x64) hz3 _ x0
theorem ld_nxt (x1 : Vec F S16x200x64 .f32) : View.ld x1 rI1 = x1 := View.ld_unit_zero (S := S16x200x64) hz3 _ x1

/-- Where an element of the `k`-th stored row sits in the output block. -/
theorem row_emb (k : Nat) (hk : k < 8)
    (inb : ∀ a, (![0, k, 0, 0] : Fin 4 → Nat) a + S16x1x250x64.size a ≤ S16x8x250x64.size a)
    (b : Fin 16) (u : Fin 1) (r : Fin 250) (f : Fin 64) :
    (Rect.unit (s := S16x8x250x64) ![0, k, 0, 0] S16x1x250x64.size inb).emb (ix4 b u r f) = ix4 b ⟨k, hk⟩ r f := by
  funext a; apply Fin.ext; rw [Rect.emb_apply]
  match a with
  | ⟨0, _⟩ => show 0 + 1 * b.val = b.val; omega
  | ⟨1, _⟩ => show k + 1 * u.val = k; have := u.isLt; omega
  | ⟨2, _⟩ => show 0 + 1 * r.val = r.val; omega
  | ⟨3, _⟩ => show 0 + 1 * f.val = f.val; omega

/-- One of the first seven stored rows: window `k` of the group, which lies inside the group. -/
theorem row_inside (x0 : Vec F S16x1000x64 .f32) (x1 : Vec F S16x200x64 .f32) (k : Nat) (hk : k < 7)
    (inb : ∀ a, (![0, k, 0, 0] : Fin 4 → Nat) a + S16x1x250x64.size a ≤ S16x8x250x64.size a)
    (hs : S16x1000x64.Slices ![0, 125 * k, 0] S16x250x64)
    (y : (Rect.unit (s := S16x8x250x64) ![0, k, 0, 0] S16x1x250x64.size inb).shape.Idx) :
    shapeCast S16x1x250x64 (extractStridedSlice S16x250x64 ![0, 125 * k, 0] x0 hs) shapeCasts_S16x250x64_S16x1x250x64 y
      = HalfWindows.stack x0 x1 ((Rect.unit (s := S16x8x250x64) ![0, k, 0, 0] S16x1x250x64.size inb).emb y) := by
  obtain ⟨b, u, r, f, rfl⟩ : ∃ (b : Fin 16) (u : Fin 1) (r : Fin 250) (f : Fin 64), y = ix4 b u r f := ⟨y 0, y 1, y 2, y 3, eq_ix4 y⟩
  have hr : r.val < 250 := r.isLt
  rw [row_emb k (by omega) inb b u r f]
  refine (HalfWindows.addUnit_apply _ _ b u r f).trans ?_
  refine (HalfWindows.window_apply (125 * k) x0 hs b r f (by omega)).trans ?_
  unfold HalfWindows.stack
  split
  · rfl
  · rename_i h; exact absurd (show 125 * k + r.val < 1000 by omega) h

/-- The last stored row: the group's last 125 rows, then the look-ahead's first 125. -/
theorem row_last (x0 : Vec F S16x1000x64 .f32) (x1 : Vec F S16x200x64 .f32)
    (y : rO7.shape.Idx) :
    shapeCast S16x1x250x64 (concatenate S16x250x64 1
        [⟨S16x125x64, extractStridedSlice S16x125x64 ![0, 875, 0] x0 slices_S16x1000x64_o0_875_0_S16x125x64⟩,
         ⟨S16x125x64, extractStridedSlice S16x125x64 ![0, 0, 0] x1 slices_S16x200x64_o0_0_0_S16x125x64⟩]
        concatenates_S16x125x64_S16x125x64_S16x250x64_d1) shapeCasts_S16x250x64_S16x1x250x64 y
      = HalfWindows.stack x0 x1 (rO7.emb y) := by
  obtain ⟨b, u, r, f, rfl⟩ : ∃ (b : Fin 16) (u : Fin 1) (r : Fin 250) (f : Fin 64), y = ix4 b u r f := ⟨y 0, y 1, y 2, y 3, eq_ix4 y⟩
  have hr : r.val < 250 := r.isLt
  rw [show rO7.emb (ix4 b u r f) = ix4 b ⟨7, by omega⟩ r f from row_emb 7 (by omega) _ b u r f]
  refine (HalfWindows.addUnit_apply _ _ b u r f).trans ?_
  refine (HalfWindows.last_apply _ _ _ b r f).trans ?_
  unfold HalfWindows.stack
  split
  · rename_i h1
    refine (HalfWindows.tail_apply 875 x0 _ b ⟨r.val, h1⟩ f (by show 875 + r.val < 1000; omega)).trans ?_
    split
    · rfl
    · rename_i h; exact absurd (show 125 * 7 + r.val < 1000 by omega) h
  · rename_i h1
    refine (HalfWindows.head_apply x1 _ b ⟨r.val - 125, by omega⟩ f).trans ?_
    split
    · rename_i h; exact absurd (show 125 * 7 + r.val < 1000 from h) (by omega)
    · exact congrArg x1 (HalfWindows.ahead_idx_ext rfl (by show r.val - 125 = 125 * 7 + r.val - 1000; omega) rfl)

/-- Every stored row is its part of the stack of eight windows. -/
theorem pieces_stack (x0 : Vec F S16x1000x64 .f32) (x1 : Vec F S16x200x64 .f32) :
    ∀ p ∈ outPieces x0 x1, ∀ y : p.1.shape.Idx, p.2 y = HalfWindows.stack x0 x1 (p.1.emb y) := by
  intro p hp
  simp only [outPieces, List.mem_cons, List.mem_nil_iff, or_false] at hp
  rcases hp with rfl | rfl | rfl | rfl | rfl | rfl | rfl | rfl
  · intro y
    show k0_pay3 (k0_pay4 (View.ld x0 rI0)) (k0_pay5 (View.ld x1 rI1)) y = _
    rw [ld_cur, ld_nxt]; unfold k0_pay3 k0_pay4 k0_pay5; dsimp only; rw [shapeCast_self, shapeCast_self]
    exact row_last x0 x1 y
  · intro y
    show k0_pay2 (k0_pay4 (View.ld x0 rI0)) y = _
    rw [ld_cur]; unfold k0_pay2 k0_pay4; dsimp only; rw [shapeCast_self]
    exact row_inside x0 x1 6 (by omega) _ _ y
  · intro y
    show k0_pay1 (k0_pay10 (View.ld x0 rI0)) y = _
    rw [ld_cur]; unfold k0_pay1 k0_pay10 k0_pay4; dsimp only; rw [shapeCast_self]
    exact row_inside x0 x1 5 (by omega) _ _ y
  · intro y
    show k0_pay11 (View.ld x0 rI0) y = _
    rw [ld_cur]; unfold k0_pay11 k0_pay4; dsimp only; rw [shapeCast_self]
    exact row_inside x0 x1 4 (by omega) _ _ y
  · intro y
    show k0_pay9 (View.ld x0 rI0) y = _
    rw [ld_cur]; unfold k0_pay9 k0_pay4; dsimp only; rw [shapeCast_self]
    exact row_inside x0 x1 3 (by omega) _ _ y
  · intro y
    show k0_pay8 (View.ld x0 rI0) y = _
    rw [ld_cur]; unfold k0_pay8 k0_pay4; dsimp only; rw [shapeCast_self]
    exact row_inside x0 x1 2 (by omega) _ _ y
  · intro y
    show k0_pay7 (View.ld x0 rI0) y = _
    rw [ld_cur]; unfold k0_pay7 k0_pay4; dsimp only; rw [shapeCast_self]
    exact row_inside x0 x1 1 (by omega) _ _ y
  · intro y
    show k0_pay6 (View.ld x0 rI0) y = _
    rw [ld_cur]; unfold k0_pay6 k0_pay4; dsimp only; rw [shapeCast_self]
    exact row_inside x0 x1 0 (by omega) _ _ y

/-- The output block after the body is the stack of the eight windows of its two input blocks. -/
theorem outBlk_eq (x0 : Vec F S16x1000x64 .f32) (x1 : Vec F S16x200x64 .f32) : outBlk x0 x1 = HalfWindows.stack x0 x1 := by
  funext y
  unfold outBlk
  exact View.canon_apply_of_pieces (HalfWindows.stack x0 x1) (outPieces x0 x1) (pieces_stack x0 x1) y (outCover _ _ _ _ _ _ _ _ y)

end Cert.KernelIdeal.Chunk

end
-- ==== Proof.Windows.lean ====
/-
  The specification both programs meet: 255 half-overlapping windows of 250 rows cut out of a signal of
  32000 rows. Window `j` starts at row `125 * j`, so output element `(b, j, c, f)` is input element
  `(b, 125 * j + c, f)`. The last window ends at row `125 * 254 + 249 = 31999`: every window lies
  inside the signal, and nothing outside it is ever read. Pure data movement: the statement is made
  for any element type.
-/
import Idealize.ShloMosaic.Lib.ValueIdx

namespace Cert.Windows

open Idealize.ShloMosaic Idealize.ShloMosaic.ValueIdx

/-- The signal: 16 batches of 32000 rows of 64 filters. -/
abbrev Sig : Shape := ⟨3, ![16, 32000, 64]⟩
/-- The windows: 16 batches of 255 windows of 250 rows of 64 filters. -/
abbrev Win : Shape := ⟨4, ![16, 255, 250, 64]⟩

/-- Row `c` of window `j` is row `125 * j + c` of the signal, which exists. -/
theorem row_lt (j : Fin 255) (c : Fin 250) : 125 * j.val + c.val < 32000 := by
  have := j.isLt; have := c.isLt; omega

/-- Where element `(b, j, c, f)` of the windows comes from in the signal. -/
def src (b : Fin 16) (j : Fin 255) (c : Fin 250) (f : Fin 64) : Sig.Idx :=
  ix3 b ⟨125 * j.val + c.val, row_lt j c⟩ f

/-- The windows of a signal. -/
def windows {α : Type} (x : Sig.Idx → α) : Win.Idx → α :=
  fun i => x (src (i 0) (i 1) (i 2) (i 3))

theorem windows_apply {α : Type} (x : Sig.Idx → α) (b : Fin 16) (j : Fin 255) (c : Fin 250) (f : Fin 64) :
    windows x (ix4 b j c f) = x (src b j c f) := rfl

/-- Two index functions into the signal agree when their coordinates do. -/
theorem sig_idx_ext {i i' : Sig.Idx} (h0 : (i 0).val = (i' 0).val) (h1 : (i 1).val = (i' 1).val)
    (h2 : (i 2).val = (i' 2).val) : i = i' := by
  funext a
  match a with
  | ⟨0, _⟩ => exact Fin.ext h0
  | ⟨1, _⟩ => exact Fin.ext h1
  | ⟨2, _⟩ => exact Fin.ext h2

/-- The coordinates of `src`. -/
theorem src_val0 (b : Fin 16) (j : Fin 255) (c : Fin 250) (f : Fin 64) : (src b j c f 0).val = b.val := rfl
theorem src_val1 (b : Fin 16) (j : Fin 255) (c : Fin 250) (f : Fin 64) : (src b j c f 1).val = 125 * j.val + c.val := rfl
theorem src_val2 (b : Fin 16) (j : Fin 255) (c : Fin 250) (f : Fin 64) : (src b j c f 2).val = f.val := rfl

end Cert.Windows
-- ==== Proof.KiValue.lean ====
/-
  The result in closed form. Point `t` writes back block `t` of the 256 windows of the padded signal (its
  group is rows `1000 t …`, its look-ahead rows `1000 (t + 1) …`, and `125 (8 t + k) + r = 1000 t + 125 k + r`);
  the 32 blocks tile the result array, so after the region it holds exactly those windows; the first 255 of
  them end at row `125 · 254 + 249 = 31999`, inside the argument, so the padding is never read and the final
  result is the 255 windows of the argument.
-/
import proofs.«115234_j62783831933059_2_alg».proof.Proof.KiRun
import proofs.«115234_j62783831933059_2_alg».proof.Proof.KiStack
import proofs.«115234_j62783831933059_2_alg».proof.Proof.Windows
import Idealize.ShloMosaic.Lib.KernelVsHost

set_option maxRecDepth 16384

noncomputable section

namespace Cert.KernelIdeal.Chunk

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx

/-! ## The result array after the region, in closed form -/

/-- Two indices into a rank-3 array agree when their coordinates do. -/
theorem idx3_ext {n0 n1 n2 : Nat} {i i' : (⟨3, ![n0, n1, n2]⟩ : Shape).Idx} (h0 : (i 0).val = (i' 0).val)
    (h1 : (i 1).val = (i' 1).val) (h2 : (i 2).val = (i' 2).val) : i = i' := by
  funext a
  match a with
  | ⟨0, _⟩ => exact Fin.ext h0
  | ⟨1, _⟩ => exact Fin.ext h1
  | ⟨2, _⟩ => exact Fin.ext h2

/-- The index maps, decided over the 32 grid points: point `t` reads group `t` of the padded signal, the
    look-ahead that starts where group `t + 1` starts, and writes windows `8 t … 8 t + 7`. -/
theorem idx_facts : ∀ t : Fin cfg0.N,
    win0_0.index t (0 : Fin 3) = 0 ∧ win0_0.index t (1 : Fin 3) = t.val ∧ win0_0.index t (2 : Fin 3) = 0
    ∧ win0_1.index t (0 : Fin 3) = 0 ∧ win0_1.index t (1 : Fin 3) = 5 * (t.val + 1) ∧ win0_1.index t (2 : Fin 3) = 0
    ∧ win0_2.index t (0 : Fin 4) = 0 ∧ win0_2.index t (1 : Fin 4) = t.val ∧ win0_2.index t (2 : Fin 4) = 0
    ∧ win0_2.index t (3 : Fin 4) = 0 :=
  (by decide +kernel : ∀ t : Fin grid0.N, _)

theorem t_lt (t : Fin cfg0.N) : t.val < 32 := Nat.lt_of_lt_of_eq t.isLt N_0

/-- The group block at point `t` holds rows `1000 t …` of the padded signal, -/
theorem inBlk0_apply (c : Dev nD) (t : Fin cfg0.N) (b : Fin 16) (q : Fin 1000) (f : Fin 64) :
    inBlk m c 0 t (ix3 b q f)
      = V m c main_v0 (ix3 b ⟨1000 * t.val + q.val, by have := t_lt t; have := q.isLt; omega⟩ f) := by
  have hm : (cfg0.win 0).moved (cfg0.grid.coords t) (ix3 b q f) = true :=
    ((cfg0.win 0).moved_iff _ _).mpr fun a => by
      have := (ix3 b q f a).isLt; unfold Window.xsize; rw [clip0_none t a]; exact this
  unfold inBlk Window.fill
  rw [dif_pos hm]
  obtain ⟨e0, e1, e2, -⟩ := idx_facts t
  show V m c main_v0 (((cfg0.win 0).blk t).view.emb _) = _
  refine congrArg (V m c main_v0) (idx3_ext ?_ ?_ ?_)
  · show win0_0.index t (0 : Fin 3) * 16 + 1 * b.val = b.val; omega
  · show win0_0.index t (1 : Fin 3) * 1000 + 1 * q.val = 1000 * t.val + q.val; omega
  · show win0_0.index t (2 : Fin 3) * 64 + 1 * f.val = f.val; omega

/-- and the look-ahead block holds rows `1000 (t + 1) …`. -/
theorem inBlk1_apply (c : Dev nD) (t : Fin cfg0.N) (b : Fin 16) (q : Fin 200) (f : Fin 64) :
    inBlk m c 1 t (ix3 b q f)
      = V m c main_v0 (ix3 b ⟨1000 * (t.val + 1) + q.val, by have := t_lt t; have := q.isLt; omega⟩ f) := by
  have hm : (cfg0.win 1).moved (cfg0.grid.coords t) (ix3 b q f) = true :=
    ((cfg0.win 1).moved_iff _ _).mpr fun a => by
      have := (ix3 b q f a).isLt; unfold Window.xsize; rw [clip1_none t a]; exact this
  unfold inBlk Window.fill
  rw [dif_pos hm]
  obtain ⟨-, -, -, e0, e1, e2, -⟩ := idx_facts t
  show V m c main_v0 (((cfg0.win 1).blk t).view.emb _) = _
  refine congrArg (V m c main_v0) (idx3_ext ?_ ?_ ?_)
  · show win0_1.index t (0 : Fin 3) * 16 + 1 * b.val = b.val; omega
  · show win0_1.index t (1 : Fin 3) * 200 + 1 * q.val = 1000 * (t.val + 1) + q.val; omega
  · show win0_1.index t (2 : Fin 3) * 64 + 1 * f.val = f.val; omega

/-- All 256 half-overlapping windows of the padded signal. -/
def padWindows (P : S16x32256x64.Idx → Elt F .f32) : S16x256x250x64.Idx → Elt F .f32 := fun i =>
  P (ix3 (i 0) ⟨125 * (i 1).val + (i 2).val, by
    have h1 : (i 1).val < 256 := (i 1).isLt
    have h2 : (i 2).val < 250 := (i 2).isLt
    omega⟩ (i 3))

/-- What point `t` writes back is block `t` of the windows of the padded signal. -/
theorem flushed_eq (c : Dev nD) (t : Fin cfg0.N) :
    (dats m 0 c).flushed 2 t = ((cfg0.win 2).blk t).view.read (Elt F) (padWindows (V m c main_v0)) := by
  show (cfg0.win 2).cut (grid0.coords t) ((dats m 0 c).after 2 t) = _
  rw [after_2, outBlk_eq]
  funext y
  obtain ⟨b, k, r, f, rfl⟩ : ∃ (b : Fin 16) (k : Fin 8) (r : Fin 250) (f : Fin 64), y = ix4 b k r f := ⟨y 0, y 1, y 2, y 3, eq_ix4 y⟩
  have hk : k.val < 8 := k.isLt
  have hr : r.val < 250 := r.isLt
  have ht := t_lt t
  obtain ⟨-, -, -, -, -, -, e0, e1, e2, e3⟩ := idx_facts t
  show HalfWindows.stack (inBlk m c 0 t) (inBlk m c 1 t) (ix4 b k r f)
    = padWindows (V m c main_v0) (((cfg0.win 2).blk t).view.emb (ix4 b k r f))
  unfold HalfWindows.stack padWindows
  split
  · rename_i h
    refine (inBlk0_apply m c t b ⟨125 * k.val + r.val, h⟩ f).trans (congrArg (V m c main_v0) (idx3_ext ?_ ?_ ?_))
    · show b.val = win0_2.index t (0 : Fin 4) * 16 + 1 * b.val; omega
    · show 1000 * t.val + (125 * k.val + r.val) = 125 * (win0_2.index t (1 : Fin 4) * 8 + 1 * k.val) + (win0_2.index t (2 : Fin 4) * 250 + 1 * r.val); omega
    · show f.val = win0_2.index t (3 : Fin 4) * 64 + 1 * f.val; omega
  · rename_i h
    have h' : ¬ (125 * k.val + r.val < 1000) := h
    refine (inBlk1_apply m c t b ⟨125 * k.val + r.val - 1000, by omega⟩ f).trans (congrArg (V m c main_v0) (idx3_ext ?_ ?_ ?_))
    · show b.val = win0_2.index t (0 : Fin 4) * 16 + 1 * b.val; omega
    · show 1000 * (t.val + 1) + (125 * k.val + r.val - 1000) = 125 * (win0_2.index t (1 : Fin 4) * 8 + 1 * k.val) + (win0_2.index t (2 : Fin 4) * 250 + 1 * r.val); omega
    · show f.val = win0_2.index t (3 : Fin 4) * 64 + 1 * f.val; omega

/-- An index of the result array lies in point `t`'s block iff each coordinate is in the block's range. -/
theorem mem_blk2 (t : Fin cfg0.N) (i : S16x256x250x64.Idx) :
    i ∈ ((cfg0.win 2).blk t).view.set ↔ ∀ a : Fin 4, win0_2.index t a * S16x8x250x64.size a ≤ (i a).val
      ∧ (i a).val < win0_2.index t a * S16x8x250x64.size a + S16x8x250x64.size a := by
  show i ∈ ((View.whole main_v1).slice (win0_2.rect t)).set ↔ _
  rw [View.set_slice_whole, Rect.mem_set_unit]
  exact Iff.rfl

/-- Window `j` is written at point `j / 8`: the 32 blocks tile the result array. -/
theorem cover2 (i : S16x256x250x64.Idx) :
    ∃ t : Fin cfg0.N, (cfg0.win 2).flush t = true ∧ i ∈ ((cfg0.win 2).blk t).view.set := by
  have h0 : (i 0).val < 16 := (i 0).isLt
  have h1 : (i 1).val < 256 := (i 1).isLt
  have h2 : (i 2).val < 250 := (i 2).isLt
  have h3 : (i 3).val < 64 := (i 3).isLt
  refine ⟨⟨(i 1).val / 8, Nat.lt_of_lt_of_eq (by omega : (i 1).val / 8 < 32) N_0.symm⟩, flush0_2 _, ?_⟩
  rw [mem_blk2]
  obtain ⟨-, -, -, -, -, -, e0, e1, e2, e3⟩ := idx_facts ⟨(i 1).val / 8, Nat.lt_of_lt_of_eq (by omega : (i 1).val / 8 < 32) N_0.symm⟩
  have e1' : win0_2.index ⟨(i 1).val / 8, Nat.lt_of_lt_of_eq (by omega : (i 1).val / 8 < 32) N_0.symm⟩ (1 : Fin 4) = (i 1).val / 8 := e1
  intro a
  match a with
  | ⟨0, _⟩ => show win0_2.index _ (0 : Fin 4) * 16 ≤ (i 0).val ∧ (i 0).val < win0_2.index _ (0 : Fin 4) * 16 + 16; omega
  | ⟨1, _⟩ => show win0_2.index _ (1 : Fin 4) * 8 ≤ (i 1).val ∧ (i 1).val < win0_2.index _ (1 : Fin 4) * 8 + 8; omega
  | ⟨2, _⟩ => show win0_2.index _ (2 : Fin 4) * 250 ≤ (i 2).val ∧ (i 2).val < win0_2.index _ (2 : Fin 4) * 250 + 250; omega
  | ⟨3, _⟩ => show win0_2.index _ (3 : Fin 4) * 64 ≤ (i 3).val ∧ (i 3).val < win0_2.index _ (3 : Fin 4) * 64 + 64; omega

/-- The result array after the region: the 256 windows of the padded signal. -/
theorem arrAt2_eq (c : Dev nD) : (dats m 0 c).arrAt 2 cfg0.N = padWindows (V m c main_v0) :=
  (dats m 0 c).arrAt_eq_of_cover 2 _ (fun t _ => flushed_eq m c t) cover2

/-- The padded signal is the argument followed by 256 rows of padding. -/
theorem V_main_v0 (c : Dev nD) : ∃ v : S_.Idx → Elt F .f32,
    V m c main_v0 = pad S16x32256x64 ![0, 0, 0] ![0, 256, 0] ![0, 0, 0] (m ((c : Thread nD τ).loc main_arg0)) v
      pads_S16x32000x64_S16x32256x64_000_02560_000 h_S_ := by
  refine ⟨sitofp .f32 (constantI S_ 32 0#32), ?_⟩
  show StableHlo.after (List.flatten [hostOps0, hostOps0_1]) (fun b => m (c, b)) (Proc.devRef .tc main_v0) = _
  simp only [hostOps0, hostOps0_1, List.flatten_cons, List.flatten_nil, List.append_nil, List.cons_append, List.nil_append]
  after_results
  rfl

/-- The final result: the first 255 windows, none of which reaches the padding, are the windows of the argument. -/
theorem result_eq (c : Dev nD) :
    extractStridedSlice S16x255x250x64 ![0, 0, 0, 0] ((dats m 0 c).arrAt 2 cfg0.N) slices_S16x256x250x64_S16x255x250x64_0_0_0_0
      = Windows.windows (m ((c : Thread nD τ).loc main_arg0)) := by
  rw [arrAt2_eq]
  obtain ⟨v, hv⟩ := V_main_v0 m c
  funext i
  obtain ⟨b, j, r, f, rfl⟩ : ∃ (b : Fin 16) (j : Fin 255) (r : Fin 250) (f : Fin 64), i = ix4 b j r f := ⟨i 0, i 1, i 2, i 3, eq_ix4 i⟩
  have hj : j.val < 255 := j.isLt
  have hr : r.val < 250 := r.isLt
  refine (extractStridedSlice_apply _ _ _ _ (ix4 b ⟨j.val, by omega⟩ r f) (fun a => ?_)).trans ?_
  · match a with
    | ⟨0, _⟩ => show b.val = 0 + b.val; omega
    | ⟨1, _⟩ => show j.val = 0 + j.val; omega
    | ⟨2, _⟩ => show r.val = 0 + r.val; omega
    | ⟨3, _⟩ => show f.val = 0 + f.val; omega
  show V m c main_v0 (ix3 b ⟨125 * j.val + r.val, _⟩ f) = m ((c : Thread nD τ).loc main_arg0) (Windows.src b j r f)
  rw [hv]
  refine pad_apply_of_inside _ _ _ _ _ _ _ _ (Windows.src b j r f) (fun a => ?_)
  match a with
  | ⟨0, _⟩ => show b.val = 0 + b.val * (0 + 1); omega
  | ⟨1, _⟩ => show 125 * j.val + r.val = 0 + (125 * j.val + r.val) * (0 + 1); omega
  | ⟨2, _⟩ => show f.val = 0 + f.val * (0 + 1); omega

/-- Every weakly fair run of the kernel's program ends with the windows of the argument in the result and the
    argument as launched. -/
theorem run : θ_run defs (onTc (τ := τ) (main (F := F))) ⟨m, fun _ => 0, ρ⟩ (fun r => ∀ c : Dev nD,
      r.2.mem ((c.tc : Thread nD τ).loc main_v2) = Windows.windows (m ((c.tc : Thread nD τ).loc main_arg0))
      ∧ r.2.mem ((c.tc : Thread nD τ).loc main_arg0) = m ((c.tc : Thread nD τ).loc main_arg0)) :=
  (θ_run defs _ _).mono (fun r h c => ⟨((h c).1).trans (result_eq m c), (h c).2⟩) (run_main m ρ)

end Cert.KernelIdeal.Chunk

end
-- ==== Proof.RefValue.lean ====
/-
  The reference program: its run and its value.

  The run. @main is a straight line of 31 host operations once its three module-local functions stand at
  their calls: the rotation of the signal by 125 rows (two slices and a concatenation), the selection of
  chunks by a table (22 operations) and the select inside it. Every weakly fair execution terminates with
  each buffer at the fold of the operations over the launch contents, the argument untouched.

  The value, read at an index. The table of 255 row numbers interleaves the 128 whole chunks (rows 0..127
  of the concatenation) with the 127 chunks of the rotated signal (rows 128..254): entry 2i is i and entry
  2i+1 is 128 + i. Every entry lies in [0, 254], so the normalisation of negative entries changes nothing,
  the bounds mask is all ones and the fill value is never taken. Row 2i of the result is rows
  250 i .. 250 i + 249 of the signal; row 2i+1 is rows 250 i .. 250 i + 249 of the rotated signal, which are
  rows 250 i + 125 .. 250 i + 374 of the signal: the rotation's wrapped tail starts at row 31875 and the last
  row read is 250 * 126 + 249 = 31749. Both are rows 125 j .. 125 j + 249 for the output row j: the windows
  of the signal. Nothing is computed on the elements, so the value lemma holds for any element type.
-/
import proofs.«115234_j62783831933059_2_alg».proof.Proof.Gen.ReferenceIdeal
import proofs.«115234_j62783831933059_2_alg».proof.Proof.Windows
import Idealize.ShloMosaic.Lib.StableHlo.Run
import Idealize.ShloMosaic.Lib.Pipeline.Value
import Idealize.ShloMosaic.Lib.ValueIdx
import Idealize.ShloMosaic.PureOps.Reduce

noncomputable section

namespace Cert.ReferenceIdeal.RefTable

open Cert.ReferenceIdeal Idealize.ShloMosaic

/-- Entry `j` of the table after the normalisation of negative entries: `e + 255` when `e < 0`, else `e`. -/
def nrm (j : Fin 255) : BitVec 32 :=
  Scalar.select (IntOp.cmpi .slt (lit0 j) 0#32) (IntOp.addi (lit0 j) 255#32) (lit0 j)

/-- The row entry `j` names, read signed and clamped into [0, 254]: `j / 2` for even `j`, `128 + j / 2` for odd `j`. -/
theorem row_eq : ∀ j : Fin 255, min (nrm j).toInt.toNat 254 = j.val / 2 + 128 * (j.val % 2) := by decide +kernel

/-- Every entry passes the bounds test `0 ≤ e ≤ 254`. -/
theorem inb : ∀ j : Fin 255, IntOp.andi (IntOp.cmpi .sge (nrm j) 0#32) (IntOp.cmpi .sle (nrm j) 254#32) = 1#1 := by decide +kernel

end Cert.ReferenceIdeal.RefTable

namespace Cert.ReferenceIdeal.RefValue

open Cert.ReferenceIdeal Cert.ReferenceIdeal.Gen Idealize.ShloMosaic Idealize.ShloMosaic.ValueIdx

variable {α : Type}

/-! ## The stages of the reference, as functions -/

/-- The table as a rank-1 array. -/
def tbl : IVec S255 32 := fun i => lit0 (S255.rowMajor i)

/-- The table with negative entries normalised. -/
def norm : IVec S255 32 :=
  select (cmpi .slt tbl (broadcastInDim S255 ![] bcast_S_S255 (constantI S_ 32 0#32)))
    (addi tbl (broadcastInDim S255 ![] bcast_S_S255 (constantI S_ 32 255#32))) tbl

/-- The start indices: the normalised table as a column. -/
def idx2 : IVec S255x1 32 := broadcastInDim S255x1 ![0] bcast_S255_S255x1_0 norm

/-- The bounds test of each start index. -/
def mask2 : IVec S255x1 1 :=
  andi (cmpi .sge idx2 (broadcastInDim S255x1 ![] bcast_S_S255x1 (constantI S_ 32 0#32)))
    (cmpi .sle idx2 (broadcastInDim S255x1 ![0, 1] bcast_S1x1_S255x1_0_1 (broadcastInDim S1x1 ![1] bcast_S1_S1x1_1 (constantI S1 32 254#32))))

/-- The bounds test reduced over the unit axis. -/
def mask : IVec S255 1 := Host.reduce IntOp.andi mask2 (constantI S_ 1 1#1) reducesTo_S255x1_S255_d1 h_S_

/-- Two runs of rows laid end to end: 31875 rows, then 125. -/
def roll2 (a : S16x31875x64.Idx → α) (b : S16x125x64.Idx → α) : S16x32000x64.Idx → α :=
  concatenate S16x32000x64 1 [⟨S16x31875x64, a⟩, ⟨S16x125x64, b⟩] concatenates_S16x31875x64_S16x125x64_S16x32000x64_d1

/-- The signal rotated up by 125 rows: rows 125.. first, rows 0..124 behind them. -/
def rolled (x : S16x32000x64.Idx → α) : S16x32000x64.Idx → α :=
  roll2 (extractStridedSlice S16x31875x64 ![0, 125, 0] x slices_S16x32000x64_S16x31875x64_0_125_0)
    (extractStridedSlice S16x125x64 ![0, 0, 0] x slices_S16x32000x64_S16x125x64_0_0_0)

/-- The 128 whole chunks. -/
def x1 (x : S16x32000x64.Idx → α) : S16x128x250x64.Idx → α :=
  shapeCast S16x128x250x64 x shapeCasts_S16x32000x64_S16x128x250x64

/-- The first 127 chunks of the rotated signal. -/
def x2 (x : S16x32000x64.Idx → α) : S16x127x250x64.Idx → α :=
  extractStridedSlice S16x127x250x64 ![0, 0, 0, 0] (shapeCast S16x128x250x64 (rolled x) shapeCasts_S16x32000x64_S16x128x250x64)
    slices_S16x128x250x64_S16x127x250x64_0_0_0_0

/-- Two runs of chunks laid end to end: 128 chunks, then 127. -/
def cat2 (a : S16x128x250x64.Idx → α) (b : S16x127x250x64.Idx → α) : S16x255x250x64.Idx → α :=
  concatenate S16x255x250x64 1 [⟨S16x128x250x64, a⟩, ⟨S16x127x250x64, b⟩]
    concatenates_S16x128x250x64_S16x127x250x64_S16x255x250x64_d1

/-- The 255 chunks, whole ones first. -/
def cat (x : S16x32000x64.Idx → α) : S16x255x250x64.Idx → α := cat2 (x1 x) (x2 x)

/-- The result: the chunks selected by the table, the fill value where the bounds test fails. -/
def out (x : S16x32000x64.Idx → α) (fill : S16x255x250x64.Idx → α) : S16x255x250x64.Idx → α :=
  select (broadcastInDim S16x255x250x64 ![1] bcast_S255_S16x255x250x64_1 mask)
    (Host.gather gather_S16x255x250x64_S255x1_S16x255x250x64_023_1_n_n_1_1_16125064 (cat x) idx2) fill

/-! ## The table side -/

theorem tbl_apply (j : Fin 255) : tbl (ix1 j) = lit0 j :=
  congrArg lit0 (Fin.ext (Shape.rowMajor_val_one (ix1 j)))

theorem norm_apply (j : Fin 255) : norm (ix1 j) = RefTable.nrm j := by
  show Scalar.select (IntOp.cmpi .slt (tbl (ix1 j)) 0#32) (IntOp.addi (tbl (ix1 j)) 255#32) (tbl (ix1 j)) = _
  rw [tbl_apply]
  rfl

theorem idx2_apply (j : Fin 255) (u : Fin 1) : idx2 (ix2 j u) = RefTable.nrm j := by
  unfold idx2
  rw [broadcastInDim_apply ![0] bcast_S255_S255x1_0 norm (ix2 j u) (ix1 j) (fun a => by match a with | ⟨0, _⟩ => rfl)]
  exact norm_apply j

theorem mask2_apply (i : S255x1.Idx) : mask2 i = 1#1 := by
  obtain ⟨j, u, rfl⟩ : ∃ (j : Fin 255) (u : Fin 1), i = ix2 j u := ⟨i 0, i 1, eq_ix2 i⟩
  show IntOp.andi (IntOp.cmpi .sge (idx2 (ix2 j u)) 0#32) (IntOp.cmpi .sle (idx2 (ix2 j u)) 254#32) = 1#1
  rw [idx2_apply]
  exact RefTable.inb j

/-- A left fold of `and` over one-bit words that are all 1, from 1, is 1. -/
theorem foldl_andi_one {ι : Type} (g : ι → BitVec 1) (hg : ∀ n, g n = 1#1) :
    ∀ l : List ι, l.foldl (fun r n => IntOp.andi r (g n)) 1#1 = 1#1
  | [] => rfl
  | a :: l => by
    rw [List.foldl_cons, hg a, show IntOp.andi 1#1 1#1 = 1#1 from by decide]
    exact foldl_andi_one g hg l

theorem mask_apply (i : S255.Idx) : mask i = 1#1 := by
  unfold mask
  rw [Host.reduce_eq_foldl]
  exact foldl_andi_one mask2 mask2_apply _

/-! ## The data side -/

/-- The index selection read at an index: the operand at the row the start index names, read signed and
    clamped into [0, 254]; the other three coordinates are the result's. -/
theorem gather_apply (x : S16x255x250x64.Idx → α) (idx : IVec S255x1 32) (b : Fin 16) (k : Fin 255) (c : Fin 250)
    (f : Fin 64) (r : Fin 255) (hr : r.val = min (idx (ix2 k 0)).toInt.toNat 254) :
    Host.gather gather_S16x255x250x64_S255x1_S16x255x250x64_023_1_n_n_1_1_16125064 x idx (ix4 b k c f) = x (ix4 b r c f) := by
  have hsi : ∀ c', (gather_S16x255x250x64_S255x1_S16x255x250x64_023_1_n_n_1_1_16125064).siIdx (ix4 b k c f) c' = ix2 k 0 := by
    intro c'
    funext b'
    refine Fin.ext ?_
    match b' with
    | ⟨0, _⟩ => rfl
    | ⟨1, _⟩ =>
      have h1 : c'.val < 1 := c'.isLt
      show c'.val = 0
      omega
  unfold Host.gather
  congr 1
  funext a
  refine Fin.ext ?_
  match a with
  | ⟨0, _⟩ => show 0 + 0 + b.val = b.val; omega
  | ⟨1, h1⟩ =>
    show min (idx ((gather_S16x255x250x64_S255x1_S16x255x250x64_023_1_n_n_1_1_16125064).siIdx (ix4 b k c f) _)).toInt.toNat 254 + 0 + 0 = r.val
    rw [hsi, hr]
    rfl
  | ⟨2, _⟩ => show 0 + 0 + c.val = c.val; omega
  | ⟨3, _⟩ => show 0 + 0 + f.val = f.val; omega

theorem rolled_apply (x : S16x32000x64.Idx → α) (b : Fin 16) (p : Fin 32000) (f : Fin 64) (hp : p.val < 31875)
    (q : Fin 32000) (hq : q.val = p.val + 125) : rolled x (ix3 b p f) = x (ix3 b q f) := by
  unfold rolled roll2
  rw [concatenate_pair_apply_left (t := S16x32000x64) (s₁ := S16x31875x64) (s₂ := S16x125x64) 1 _ _
    concatenates_S16x31875x64_S16x125x64_S16x32000x64_d1 (ix3 b p f) rfl
    (ix3 b (⟨p.val, hp⟩ : Fin 31875) f) (fun a => by match a with | ⟨0, _⟩ => rfl | ⟨1, _⟩ => rfl | ⟨2, _⟩ => rfl)]
  exact extractStridedSlice_apply _ x _ (ix3 b (⟨p.val, hp⟩ : Fin 31875) f) (ix3 b q f) (fun a => by
    match a with
    | ⟨0, _⟩ => show b.val = 0 + b.val; omega
    | ⟨1, _⟩ => show q.val = 125 + p.val; omega
    | ⟨2, _⟩ => show f.val = 0 + f.val; omega)

theorem x1_apply (x : S16x32000x64.Idx → α) (b : Fin 16) (n : Fin 128) (c : Fin 250) (f : Fin 64) (r : Fin 32000)
    (hr : r.val = 250 * n.val + c.val) : x1 x (ix4 b n c f) = x (ix3 b r f) := by
  unfold x1
  refine shapeCast_apply x _ (ix4 b n c f) (ix3 b r f) ?_
  rw [Shape.rowMajor_val_three, Shape.rowMajor_val_four]
  show (b.val * 32000 + r.val) * 64 + f.val = ((b.val * 128 + n.val) * 250 + c.val) * 64 + f.val
  omega

theorem x2_apply (x : S16x32000x64.Idx → α) (b : Fin 16) (n : Fin 127) (c : Fin 250) (f : Fin 64) (q : Fin 32000)
    (hq : q.val = 250 * n.val + c.val + 125) : x2 x (ix4 b n c f) = x (ix3 b q f) := by
  have hn := n.isLt
  have hc := c.isLt
  unfold x2
  rw [extractStridedSlice_apply _ _ _ (ix4 b n c f) (ix4 b (⟨n.val, by omega⟩ : Fin 128) c f) (fun a => by
    match a with
    | ⟨0, _⟩ => show b.val = 0 + b.val; omega
    | ⟨1, _⟩ => show n.val = 0 + n.val; omega
    | ⟨2, _⟩ => show c.val = 0 + c.val; omega
    | ⟨3, _⟩ => show f.val = 0 + f.val; omega)]
  rw [shapeCast_apply (rolled x) _ (ix4 b (⟨n.val, by omega⟩ : Fin 128) c f) (ix3 b (⟨250 * n.val + c.val, by omega⟩ : Fin 32000) f) (by
    rw [Shape.rowMajor_val_three, Shape.rowMajor_val_four]
    show (b.val * 32000 + (250 * n.val + c.val)) * 64 + f.val = ((b.val * 128 + n.val) * 250 + c.val) * 64 + f.val
    omega)]
  exact rolled_apply x b _ f (by show 250 * n.val + c.val < 31875; omega) q hq

theorem cat_left (x : S16x32000x64.Idx → α) (b : Fin 16) (r : Fin 255) (c : Fin 250) (f : Fin 64) (n : Fin 128)
    (hn : n.val = r.val) : cat x (ix4 b r c f) = x1 x (ix4 b n c f) := by
  unfold cat cat2
  exact concatenate_pair_apply_left (t := S16x255x250x64) (s₁ := S16x128x250x64) (s₂ := S16x127x250x64) 1 _ _ _ (ix4 b r c f) rfl (ix4 b n c f) (fun a => by
    match a with
    | ⟨0, _⟩ => rfl
    | ⟨1, _⟩ => exact hn
    | ⟨2, _⟩ => rfl
    | ⟨3, _⟩ => rfl)

theorem cat_right (x : S16x32000x64.Idx → α) (b : Fin 16) (r : Fin 255) (c : Fin 250) (f : Fin 64) (n : Fin 127)
    (hn : n.val + 128 = r.val) : cat x (ix4 b r c f) = x2 x (ix4 b n c f) := by
  unfold cat cat2
  exact concatenate_pair_apply_right (t := S16x255x250x64) (s₁ := S16x128x250x64) (s₂ := S16x127x250x64) 1 _ _ _ (ix4 b r c f) rfl rfl (ix4 b n c f) (fun a ha => by
    match a, ha with
    | ⟨0, _⟩, _ => rfl
    | ⟨1, _⟩, ha => exact absurd (Fin.ext rfl) ha
    | ⟨2, _⟩, _ => rfl
    | ⟨3, _⟩, _ => rfl) hn

/-- The result at `(b, j, c, f)` is the signal at `(b, 125 j + c, f)`. -/
theorem out_apply (x : S16x32000x64.Idx → α) (fill : S16x255x250x64.Idx → α) (b : Fin 16) (j : Fin 255) (c : Fin 250)
    (f : Fin 64) (q : Fin 32000) (hq : q.val = 125 * j.val + c.val) : out x fill (ix4 b j c f) = x (ix3 b q f) := by
  have hj := j.isLt
  have hc := c.isLt
  have hm : broadcastInDim S16x255x250x64 ![1] bcast_S255_S16x255x250x64_1 mask (ix4 b j c f) = 1#1 := by
    rw [broadcastInDim_apply ![1] bcast_S255_S16x255x250x64_1 mask (ix4 b j c f) (ix1 j) (fun a => by match a with | ⟨0, _⟩ => rfl)]
    exact mask_apply _
  show Scalar.select (broadcastInDim S16x255x250x64 ![1] bcast_S255_S16x255x250x64_1 mask (ix4 b j c f))
    (Host.gather gather_S16x255x250x64_S255x1_S16x255x250x64_023_1_n_n_1_1_16125064 (cat x) idx2 (ix4 b j c f)) (fill (ix4 b j c f)) = _
  rw [hm, select_one]
  have hrow : min (idx2 (ix2 j 0)).toInt.toNat 254 = j.val / 2 + 128 * (j.val % 2) := by
    rw [idx2_apply]
    exact RefTable.row_eq j
  rw [gather_apply (cat x) idx2 b j c f (⟨j.val / 2 + 128 * (j.val % 2), by omega⟩ : Fin 255) hrow.symm]
  rcases Nat.mod_two_eq_zero_or_one j.val with h0 | h1
  · rw [cat_left x b _ c f (⟨j.val / 2, by omega⟩ : Fin 128) (by show j.val / 2 = j.val / 2 + 128 * (j.val % 2); omega)]
    exact x1_apply x b _ c f q (by show q.val = 250 * (j.val / 2) + c.val; omega)
  · rw [cat_right x b _ c f (⟨j.val / 2, by omega⟩ : Fin 127) (by show j.val / 2 + 128 = j.val / 2 + 128 * (j.val % 2); omega)]
    exact x2_apply x b _ c f q (by show q.val = 250 * (j.val / 2) + c.val + 125; omega)

/-- The reference's result is the windows of the signal, whatever the fill value. -/
theorem out_eq_windows (x : S16x32000x64.Idx → α) (fill : S16x255x250x64.Idx → α) :
    out x fill = Cert.Windows.windows x := by
  funext i
  obtain ⟨b, j, c, f, rfl⟩ : ∃ (b : Fin 16) (j : Fin 255) (c : Fin 250) (f : Fin 64), i = ix4 b j c f :=
    ⟨i 0, i 1, i 2, i 3, eq_ix4 i⟩
  rw [Cert.Windows.windows_apply]
  exact out_apply x fill b j c f _ rfl

end Cert.ReferenceIdeal.RefValue

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 31 operations, in order, each by the builder over its buffers: the functions' bodies stand at their
    calls, a reshape as the row-major re-indexing it is. -/
abbrev ops : List (HloOp τ sig (Elt F)) :=
  [ nullary main_c (RefValue.tbl : (⟨S255, .i32⟩ : BufTy).Contents (Elt F)),
    unary main_arg0 main_v0 ((shapeCast S16x128x250x64 · shapeCasts_S16x32000x64_S16x128x250x64) : (⟨S16x32000x64, .f32⟩ : BufTy).Contents (Elt F) → (⟨S16x128x250x64, .f32⟩ : BufTy).Contents (Elt F)),
    unary main_arg0 main_call0_v0 ((extractStridedSlice S16x31875x64 ![0, 125, 0] · slices_S16x32000x64_S16x31875x64_0_125_0) : (⟨S16x32000x64, .f32⟩ : BufTy).Contents (Elt F) → (⟨S16x31875x64, .f32⟩ : BufTy).Contents (Elt F)),
    unary main_arg0 main_call0_v1 ((extractStridedSlice S16x125x64 ![0, 0, 0] · slices_S16x32000x64_S16x125x64_0_0_0) : (⟨S16x32000x64, .f32⟩ : BufTy).Contents (Elt F) → (⟨S16x125x64, .f32⟩ : BufTy).Contents (Elt F)),
    binary main_call0_v0 main_call0_v1 main_v1 (RefValue.roll2 : (⟨S16x31875x64, .f32⟩ : BufTy).Contents (Elt F) → (⟨S16x125x64, .f32⟩ : BufTy).Contents (Elt F) → (⟨S16x32000x64, .f32⟩ : BufTy).Contents (Elt F)),
    unary main_v1 main_v2 ((shapeCast S16x128x250x64 · shapeCasts_S16x32000x64_S16x128x250x64) : (⟨S16x32000x64, .f32⟩ : BufTy).Contents (Elt F) → (⟨S16x128x250x64, .f32⟩ : BufTy).Contents (Elt F)),
    unary main_v2 main_v3 ((extractStridedSlice S16x127x250x64 ![0, 0, 0, 0] · slices_S16x128x250x64_S16x127x250x64_0_0_0_0) : (⟨S16x128x250x64, .f32⟩ : BufTy).Contents (Elt F) → (⟨S16x127x250x64, .f32⟩ : BufTy).Contents (Elt F)),
    binary main_v0 main_v3 main_v4 (RefValue.cat2 : (⟨S16x128x250x64, .f32⟩ : BufTy).Contents (Elt F) → (⟨S16x127x250x64, .f32⟩ : BufTy).Contents (Elt F) → (⟨S16x255x250x64, .f32⟩ : BufTy).Contents (Elt F)),
    nullary main_call1_c (constantI S_ 32 0#32 : (⟨S_, .i32⟩ : BufTy).Contents (Elt F)),
    unary main_call1_c main_call1_v0 (broadcastInDim S255 ![] bcast_S_S255 : (⟨S_, .i32⟩ : BufTy).Contents (Elt F) → (⟨S255, .i32⟩ : BufTy).Contents (Elt F)),
    binary main_c main_call1_v0 main_call1_v1 (cmpi .slt : (⟨S255, .i32⟩ : BufTy).Contents (Elt F) → (⟨S255, .i32⟩ : BufTy).Contents (Elt F) → (⟨S255, .i1⟩ : BufTy).Contents (Elt F)),
    nullary main_call1_c_0 (constantI S_ 32 255#32 : (⟨S_, .i32⟩ : BufTy).Contents (Elt F)),
    unary main_call1_c_0 main_call1_v2 (broadcastInDim S255 ![] bcast_S_S255 : (⟨S_, .i32⟩ : BufTy).Contents (Elt F) → (⟨S255, .i32⟩ : BufTy).Contents (Elt F)),
    binary main_c main_call1_v2 main_call1_v3 (addi : (⟨S255, .i32⟩ : BufTy).Contents (Elt F) → (⟨S255, .i32⟩ : BufTy).Contents (Elt F) → (⟨S255, .i32⟩ : BufTy).Contents (Elt F)),
    ternary main_call1_v1 main_call1_v3 main_c main_call1_v4 (select : (⟨S255, .i1⟩ : BufTy).Contents (Elt F) → (⟨S255, .i32⟩ : BufTy).Contents (Elt F) → (⟨S255, .i32⟩ : BufTy).Contents (Elt F) → (⟨S255, .i32⟩ : BufTy).Contents (Elt F)),
    unary main_call1_v4 main_call1_v5 (broadcastInDim S255x1 ![0] bcast_S255_S255x1_0 : (⟨S255, .i32⟩ : BufTy).Contents (Elt F) → (⟨S255x1, .i32⟩ : BufTy).Contents (Elt F)),
    nullary main_call1_c_1 (constantI S1 32 254#32 : (⟨S1, .i32⟩ : BufTy).Contents (Elt F)),
    nullary main_call1_c_2 (constantI S_ 32 0#32 : (⟨S_, .i32⟩ : BufTy).Contents (Elt F)),
    unary main_call1_c_2 main_call1_v6 (broadcastInDim S255x1 ![] bcast_S_S255x1 : (⟨S_, .i32⟩ : BufTy).Contents (Elt F) → (⟨S255x1, .i32⟩ : BufTy).Contents (Elt F)),
    binary main_call1_v5 main_call1_v6 main_call1_v7 (cmpi .sge : (⟨S255x1, .i32⟩ : BufTy).Contents (Elt F) → (⟨S255x1, .i32⟩ : BufTy).Contents (Elt F) → (⟨S255x1, .i1⟩ : BufTy).Contents (Elt F)),
    unary main_call1_c_1 main_call1_v8 (broadcastInDim S1x1 ![1] bcast_S1_S1x1_1 : (⟨S1, .i32⟩ : BufTy).Contents (Elt F) → (⟨S1x1, .i32⟩ : BufTy).Contents (Elt F)),
    unary main_call1_v8 main_call1_v9 (broadcastInDim S255x1 ![0, 1] bcast_S1x1_S255x1_0_1 : (⟨S1x1, .i32⟩ : BufTy).Contents (Elt F) → (⟨S255x1, .i32⟩ : BufTy).Contents (Elt F)),
    binary main_call1_v5 main_call1_v9 main_call1_v10 (cmpi .sle : (⟨S255x1, .i32⟩ : BufTy).Contents (Elt F) → (⟨S255x1, .i32⟩ : BufTy).Contents (Elt F) → (⟨S255x1, .i1⟩ : BufTy).Contents (Elt F)),
    binary main_call1_v7 main_call1_v10 main_call1_v11 (andi : (⟨S255x1, .i1⟩ : BufTy).Contents (Elt F) → (⟨S255x1, .i1⟩ : BufTy).Contents (Elt F) → (⟨S255x1, .i1⟩ : BufTy).Contents (Elt F)),
    nullary main_call1_c_3 (constantI S_ 1 1#1 : (⟨S_, .i1⟩ : BufTy).Contents (Elt F)),
    binary main_call1_v11 main_call1_c_3 main_call1_v12 ((fun x v => Host.reduce IntOp.andi x v reducesTo_S255x1_S255_d1 h_S_) : (⟨S255x1, .i1⟩ : BufTy).Contents (Elt F) → (⟨S_, .i1⟩ : BufTy).Contents (Elt F) → (⟨S255, .i1⟩ : BufTy).Contents (Elt F)),
    binary main_v4 main_call1_v5 main_call1_v13 ((fun x i => Host.gather gather_S16x255x250x64_S255x1_S16x255x250x64_023_1_n_n_1_1_16125064 x i) : (⟨S16x255x250x64, .f32⟩ : BufTy).Contents (Elt F) → (⟨S255x1, .i32⟩ : BufTy).Contents (Elt F) → (⟨S16x255x250x64, .f32⟩ : BufTy).Contents (Elt F)),
    unary main_call1_v12 main_call1_v14 (broadcastInDim S16x255x250x64 ![1] bcast_S255_S16x255x250x64_1 : (⟨S255, .i1⟩ : BufTy).Contents (Elt F) → (⟨S16x255x250x64, .i1⟩ : BufTy).Contents (Elt F)),
    nullary main_call1_cst (constant S_ .f32 0x7FC00000#32 : (⟨S_, .f32⟩ : BufTy).Contents (Elt F)),
    unary main_call1_cst main_call1_v15 (broadcastInDim S16x255x250x64 ![] bcast_S_S16x255x250x64 : (⟨S_, .f32⟩ : BufTy).Contents (Elt F) → (⟨S16x255x250x64, .f32⟩ : BufTy).Contents (Elt F)),
    ternary main_call1_v14 main_call1_v13 main_call1_v15 main_v5 (select : (⟨S16x255x250x64, .i1⟩ : BufTy).Contents (Elt F) → (⟨S16x255x250x64, .f32⟩ : BufTy).Contents (Elt F) → (⟨S16x255x250x64, .f32⟩ : BufTy).Contents (Elt F) → (⟨S16x255x250x64, .f32⟩ : BufTy).Contents (Elt F)) ]

-- thirty-one binds re-associated; each operation of a function's body is the builder over the call's buffers
-- once the transports along the buffers' (literal) types are read as the identities they are
set_option maxRecDepth 4096 in
set_option maxHeartbeats 1000000 in
/-- @main is that straight line: the functions' bodies unfolded at their calls, sequencing reassociated. -/
theorem main_eq (c : Dev nD) : main (F := F) c = seq ops := by
  simp only [main, fn_roll_static.body, fn_take.body, fn_where.body, seq, bind_assoc, pure_bind]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

/-- Every weakly fair execution of @main terminates with each buffer at the fold of the operations over the
    launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-- The result buffer after the line is the composed term: the selection by the table of the 255 chunks, the
    fill value a broadcast constant that the value lemma never reads. -/
theorem out_eq (V : Valuation τ sig (Elt F)) :
    after ops V (main_v5 : DevRef τ sig)
      = RefValue.out (V (main_arg0 : DevRef τ sig))
          (broadcastInDim S16x255x250x64 ![] bcast_S_S16x255x250x64 (constant S_ .f32 0x7FC00000#32)) := by
  simp only [RefValue.out, RefValue.cat, RefValue.x1, RefValue.x2, RefValue.rolled, RefValue.mask, RefValue.mask2,
    RefValue.idx2, RefValue.norm]
  after_results_simp

/-- No operation writes the argument. -/
theorem arg0_eq (V : Valuation τ sig (Elt F)) :
    after ops V (main_arg0 : DevRef τ sig) = V (main_arg0 : DevRef τ sig) := by
  after_results_simp

end Cert.ReferenceIdeal.RefRun

namespace Cert.ReferenceIdeal.RefValue

open Cert.ReferenceIdeal Cert.ReferenceIdeal.Gen Idealize.ShloMosaic Idealize.ShloMosaic.TcCoe Idealize.SL.Sem Idealize.ShloMosaic.StableHlo

/-- Every weakly fair execution of the reference terminates with its result the windows of its argument and the
    argument unchanged. -/
theorem run (m : (l : Loc Cert.ReferenceIdeal.nD Cert.ReferenceIdeal.τ Cert.ReferenceIdeal.sig) → Buf (Elt Ideal) l) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread Cert.ReferenceIdeal.nD Cert.ReferenceIdeal.τ).loc Cert.ReferenceIdeal.main_v5) = Cert.Windows.windows (m ((c.tc : Thread Cert.ReferenceIdeal.nD Cert.ReferenceIdeal.τ).loc Cert.ReferenceIdeal.main_arg0))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)) :=
  (θ_run defs _ _).mono (fun _ h c => ⟨(h c main_v5).trans ((RefRun.out_eq _).trans (out_eq_windows _ _)),
      (h c main_arg0).trans (RefRun.arg0_eq _)⟩)
    (RefRun.run_main m ρ)

end Cert.ReferenceIdeal.RefValue

end
-- ==== Proof.lean ====
/-
  The kernel and its reference both cut a signal of 32000 rows into 255 half-overlapping windows of 250 rows:
  window `j` is rows `125 j … 125 j + 249`, so element `(b, j, c, f)` of the result is element
  `(b, 125 j + c, f)` of the argument (Proof/Windows.lean). The kernel pads the signal, hands each of 32 grid
  points one group of 1000 rows and a look-ahead into the next group, stores the eight windows that start in the
  group, and drops the 256th window, the only one that reaches the padding. The reference reshapes the signal
  and its copy rolled by 125 rows into 128 + 127 windows and interleaves them with a gather whose index table
  is 0, 128, 1, 129, …, every entry in range. Both are pure data movement: no float operation is applied, so the
  two results are equal element by element over the extended reals with no use of the precondition. The three
  frames — each program terminates, faults nowhere and leaves its argument as launched — are read off the same
  runs; the idealization rewrote nothing, so its conjunct is trivial.
-/
import proofs.«115234_j62783831933059_2_alg».proof.Defs
import proofs.«115234_j62783831933059_2_alg».proof.Proof.Gen.Kernel
import proofs.«115234_j62783831933059_2_alg».proof.Proof.Gen.KernelIdeal
import proofs.«115234_j62783831933059_2_alg».proof.Proof.Gen.ReferenceIdeal
import proofs.«115234_j62783831933059_2_alg».proof.Proof.Gen.Pre_finite_inputs
import proofs.«115234_j62783831933059_2_alg».proof.Proof.KRun
import proofs.«115234_j62783831933059_2_alg».proof.Proof.KiValue
import proofs.«115234_j62783831933059_2_alg».proof.Proof.RefValue
import Idealize.ShloMosaic.Adequacy
import Idealize.ShloMosaic.Init

noncomputable section

namespace Cert.Proof

open Idealize.ShloMosaic Idealize.SL.Sem

/-- The kernel's program as printed, read at the word-level instance: it runs, and its argument ends unchanged. -/
theorem frame_k : Cert.frame_Kernel := fun m ρ _ =>
  (θ_run Cert.Kernel.defs _ _).mono (fun _ h c => (h c).2) (Cert.Kernel.Chunk.run_main (F := Bits) m ρ)

/-- The same program read over the extended reals. -/
theorem frame_ki : Cert.frame_KernelIdeal := fun m ρ _ =>
  (θ_run Cert.KernelIdeal.defs _ _).mono (fun _ h c => (h c).2) (Cert.KernelIdeal.Chunk.run_main (F := Ideal) m ρ)

/-- The reference: its run with the result dropped. -/
theorem frame_ri : Cert.frame_ReferenceIdeal := fun m ρ _ =>
  (θ_run Cert.ReferenceIdeal.defs _ _).mono (fun _ h c => (h c).2) (Cert.ReferenceIdeal.RefValue.run m ρ)

/-- Both programs end with the 255 windows of the argument; the arguments agree, so the results do. -/
theorem algebraic : Cert.algebraic_KernelIdeal_ReferenceIdeal := by
  intro m ρ m' ρ' _ hagree
  refine ⟨fun c => Cert.Windows.windows (m ((c.tc : Thread Cert.KernelIdeal.nD Cert.KernelIdeal.τ).loc Cert.KernelIdeal.main_arg0)),
    Cert.KernelIdeal.Chunk.run (F := Ideal) m ρ, ?_⟩
  refine (θ_run Cert.ReferenceIdeal.defs _ _).mono (fun _ h c => ⟨(h c).1.trans ?_, (h c).2⟩) (Cert.ReferenceIdeal.RefValue.run m' ρ')
  rw [hagree c]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
